-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x74 : Shape := ⟨2, ![131072, 74]⟩
abbrev S1048576 : Shape := ⟨1, ![1048576]⟩
abbrev S74x128 : Shape := ⟨2, ![74, 128]⟩
abbrev S128x128 : Shape := ⟨2, ![128, 128]⟩
abbrev S128 : Shape := ⟨1, ![128]⟩
abbrev S_ : Shape := ⟨0, ![]⟩

class Facts : Prop where
  bcast_S_S131072x74 : S_.BroadcastsInDim S131072x74 (![] : Fin 0 → Fin S131072x74.rank)
  reducesTo_S131072x74_S_d0_1 : S131072x74.ReducesTo [0, 1] S_
  h_S_ : 0 < S_.numel
  bcast_S_S74x128 : S_.BroadcastsInDim S74x128 (![] : Fin 0 → Fin S74x128.rank)
  reducesTo_S74x128_S_d0_1 : S74x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S131072x74 .f32) (main_arg1 : IVec S1048576 32) (main_arg2 : IVec S1048576 32) (main_arg3 : FVec F S74x128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S131072x74 .f32 := Host.absf main_arg0
  let main_cst : FVec F S_ .f32 := constant S_ .f32 0x7F800000#32
  let main_v1 : FVec F S131072x74 .f32 := broadcastInDim S131072x74 ![] bcast_S_S131072x74 main_cst
  let main_v2 : IVec S131072x74 1 := cmpf .olt main_v0 main_v1
  let main_c : IVec S_ 1 := constantI S_ 1 1#1
  let main_v3 : IVec S_ 1 := (fun x v => Host.reduce IntOp.andi x v reducesTo_S131072x74_S_d0_1 h_S_) main_v2 main_c
  let main_v4 : FVec F S74x128 .f32 := Host.absf main_arg3
  let main_cst_0 : FVec F S_ .f32 := constant S_ .f32 0x7F800000#32
  let main_v5 : FVec F S74x128 .f32 := broadcastInDim S74x128 ![] bcast_S_S74x128 main_cst_0
  let main_v6 : IVec S74x128 1 := cmpf .olt main_v4 main_v5
  let main_c_1 : IVec S_ 1 := constantI S_ 1 1#1
  let main_v7 : IVec S_ 1 := (fun x v => Host.reduce IntOp.andi x v reducesTo_S74x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S131072x74 : Shape := ⟨2, ![131072, 74]⟩
abbrev S1048576 : Shape := ⟨1, ![1048576]⟩
abbrev S74x128 : Shape := ⟨2, ![74, 128]⟩
abbrev S128x128 : Shape := ⟨2, ![128, 128]⟩
abbrev S128 : Shape := ⟨1, ![128]⟩
abbrev S_ : Shape := ⟨0, ![]⟩
abbrev S131072 : Shape := ⟨1, ![131072]⟩
abbrev S1048576x1 : Shape := ⟨2, ![1048576, 1]⟩
abbrev S131072x1 : Shape := ⟨2, ![131072, 1]⟩
abbrev S131072x128 : Shape := ⟨2, ![131072, 128]⟩
abbrev S4096x74 : Shape := ⟨2, ![4096, 74]⟩
abbrev S4096x1 : Shape := ⟨2, ![4096, 1]⟩
abbrev S4096x128 : Shape := ⟨2, ![4096, 128]⟩
abbrev S1048576x128 : Shape := ⟨2, ![1048576, 128]⟩
abbrev S1x128 : Shape := ⟨2, ![1, 128]⟩
abbrev S256x512x128 : Shape := ⟨3, ![256, 512, 128]⟩

abbrev nBuf : Space → Nat
  | .hbm => 77
  | .vmem => 35
  | .smem => 0
  | _ => 0

abbrev bufTy : (tb : Table) → Fin (tcTables nBuf tb) → BufTy
  | .hbm, ⟨0, _⟩ => ⟨S131072x74, .f32⟩
  | .hbm, ⟨1, _⟩ => ⟨S1048576, .i32⟩
  | .hbm, ⟨2, _⟩ => ⟨S1048576, .i32⟩
  | .hbm, ⟨3, _⟩ => ⟨S74x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S_, .f32⟩
  | .hbm, ⟨11, _⟩ => ⟨S1048576, .f32⟩
  | .hbm, ⟨12, _⟩ => ⟨S_, .f32⟩
  | .hbm, ⟨13, _⟩ => ⟨S131072, .f32⟩
  | .hbm, ⟨14, _⟩ => ⟨S1048576x1, .i32⟩
  | .hbm, ⟨15, _⟩ => ⟨S131072, .f32⟩
  | .hbm, ⟨16, _⟩ => ⟨S_, .f32⟩
  | .hbm, ⟨17, _⟩ => ⟨S131072, .f32⟩
  | .hbm, ⟨18, _⟩ => ⟨S1048576x1, .i32⟩
  | .hbm, ⟨19, _⟩ => ⟨S131072, .f32⟩
  | .hbm, ⟨20, _⟩ => ⟨S_, .f32⟩
  | .hbm, ⟨21, _⟩ => ⟨S131072, .f32⟩
  | .hbm, ⟨22, _⟩ => ⟨S131072, .f32⟩
  | .hbm, ⟨23, _⟩ => ⟨S131072, .f32⟩
  | .hbm, ⟨24, _⟩ => ⟨S131072x1, .f32⟩
  | .hbm, ⟨25, _⟩ => ⟨S_, .f32⟩
  | .hbm, ⟨26, _⟩ => ⟨S131072, .f32⟩
  | .hbm, ⟨27, _⟩ => ⟨S131072, .f32⟩
  | .hbm, ⟨28, _⟩ => ⟨S131072, .f32⟩
  | .hbm, ⟨29, _⟩ => ⟨S131072x1, .f32⟩
  | .hbm, ⟨30, _⟩ => ⟨S131072x128, .bf16⟩
  | .hbm, ⟨31, _⟩ => ⟨S_, .i32⟩
  | .hbm, ⟨32, _⟩ => ⟨S1048576, .i32⟩
  | .hbm, ⟨33, _⟩ => ⟨S1048576, .i1⟩
  | .hbm, ⟨34, _⟩ => ⟨S_, .i32⟩
  | .hbm, ⟨35, _⟩ => ⟨S1048576, .i32⟩
  | .hbm, ⟨36, _⟩ => ⟨S1048576, .i32⟩
  | .hbm, ⟨37, _⟩ => ⟨S1048576, .i32⟩
  | .hbm, ⟨38, _⟩ => ⟨S1048576x1, .i32⟩
  | .hbm, ⟨39, _⟩ => ⟨S1048576x128, .bf16⟩
  | .hbm, ⟨40, _⟩ => ⟨S1048576x128, .f32⟩
  | .hbm, ⟨41, _⟩ => ⟨S_, .f32⟩
  | .hbm, ⟨42, _⟩ => ⟨S131072x128, .f32⟩
  | .hbm, ⟨43, _⟩ => ⟨S1048576x1, .i32⟩
  | .hbm, ⟨44, _⟩ => ⟨S131072x128, .f32⟩
  | .hbm, ⟨45, _⟩ => ⟨S131072x128, .bf16⟩
  | .hbm, ⟨46, _⟩ => ⟨S_, .i32⟩
  | .hbm, ⟨47, _⟩ => ⟨S1048576, .i32⟩
  | .hbm, ⟨48, _⟩ => ⟨S1048576, .i1⟩
  | .hbm, ⟨49, _⟩ => ⟨S_, .i32⟩
  | .hbm, ⟨50, _⟩ => ⟨S1048576, .i32⟩
  | .hbm, ⟨51, _⟩ => ⟨S1048576, .i32⟩
  | .hbm, ⟨52, _⟩ => ⟨S1048576, .i32⟩
  | .hbm, ⟨53, _⟩ => ⟨S1048576x1, .i32⟩
  | .hbm, ⟨54, _⟩ => ⟨S1048576x128, .bf16⟩
  | .hbm, ⟨55, _⟩ => ⟨S1048576x128, .f32⟩
  | .hbm, ⟨56, _⟩ => ⟨S_, .f32⟩
  | .hbm, ⟨57, _⟩ => ⟨S131072x128, .f32⟩
  | .hbm, ⟨58, _⟩ => ⟨S1048576x1, .i32⟩
  | .hbm, ⟨59, _⟩ => ⟨S131072x128, .f32⟩
  | .hbm, ⟨60, _⟩ => ⟨S131072x128, .bf16⟩
  | .hbm, ⟨61, _⟩ => ⟨S_, .i32⟩
  | .hbm, ⟨62, _⟩ => ⟨S1048576, .i32⟩
  | .hbm, ⟨63, _⟩ => ⟨S1048576, .i1⟩
  | .hbm, ⟨64, _⟩ => ⟨S_, .i32⟩
  | .hbm, ⟨65, _⟩ => ⟨S1048576, .i32⟩
  | .hbm, ⟨66, _⟩ => ⟨S1048576, .i32⟩
  | .hbm, ⟨67, _⟩ => ⟨S1048576, .i32⟩
  | .hbm, ⟨68, _⟩ => ⟨S1048576x1, .i32⟩
  | .hbm, ⟨69, _⟩ => ⟨S1048576x128, .bf16⟩
  | .hbm, ⟨70, _⟩ => ⟨S1048576x128, .f32⟩
  | .hbm, ⟨71, _⟩ => ⟨S_, .f32⟩
  | .hbm, ⟨72, _⟩ => ⟨S131072x128, .f32⟩
  | .hbm, ⟨73, _⟩ => ⟨S1048576x1, .i32⟩
  | .hbm, ⟨74, _⟩ => ⟨S131072x128, .f32⟩
  | .hbm, ⟨75, _⟩ => ⟨S131072x128, .f32⟩
  | .hbm, ⟨76, _⟩ => ⟨S256x512x128, .f32⟩
  | .local _ .vmem, ⟨0, _⟩ => ⟨S4096x74, .f32⟩
  | .local _ .vmem, ⟨1, _⟩ => ⟨S4096x74, .f32⟩
  | .local _ .vmem, ⟨2, _⟩ => ⟨S74x128, .f32⟩
  | .local _ .vmem, ⟨3, _⟩ => ⟨S4096x1, .f32⟩
  | .local _ .vmem, ⟨4, _⟩ => ⟨S4096x1, .f32⟩
  | .local _ .vmem, ⟨5, _⟩ => ⟨S4096x128, .bf16⟩
  | .local _ .vmem, ⟨6, _⟩ => ⟨S4096x128, .bf16⟩
  | .local _ .vmem, ⟨7, _⟩ => ⟨S4096x128, .f32⟩
  | .local _ .vmem, ⟨8, _⟩ => ⟨S4096x128, .f32⟩
  | .local _ .vmem, ⟨9, _⟩ => ⟨S4096x1, .f32⟩
  | .local _ .vmem, ⟨10, _⟩ => ⟨S4096x1, .f32⟩
  | .local _ .vmem, ⟨11, _⟩ => ⟨S4096x1, .f32⟩
  | .local _ .vmem, ⟨12, _⟩ => ⟨S4096x1, .f32⟩
  | .local _ .vmem, ⟨13, _⟩ => ⟨S128x128, .f32⟩
  | .local _ .vmem, ⟨14, _⟩ => ⟨S128, .f32⟩
  | .local _ .vmem, ⟨15, _⟩ => ⟨S4096x128, .bf16⟩
  | .local _ .vmem, ⟨16, _⟩ => ⟨S4096x128, .bf16⟩
  | .local _ .vmem, ⟨17, _⟩ => ⟨S4096x128, .f32⟩
  | .local _ .vmem, ⟨18, _⟩ => ⟨S4096x128, .f32⟩
  | .local _ .vmem, ⟨19, _⟩ => ⟨S4096x1, .f32⟩
  | .local _ .vmem, ⟨20, _⟩ => ⟨S4096x1, .f32⟩
  | .local _ .vmem, ⟨21, _⟩ => ⟨S4096x1, .f32⟩
  | .local _ .vmem, ⟨22, _⟩ => ⟨S4096x1, .f32⟩
  | .local _ .vmem, ⟨23, _⟩ => ⟨S128x128, .f32⟩
  | .local _ .vmem, ⟨24, _⟩ => ⟨S128, .f32⟩
  | .local _ .vmem, ⟨25, _⟩ => ⟨S4096x128, .bf16⟩
  | .local _ .vmem, ⟨26, _⟩ => ⟨S4096x128, .bf16⟩
  | .local _ .vmem, ⟨27, _⟩ => ⟨S4096x128, .f32⟩
  | .local _ .vmem, ⟨28, _⟩ => ⟨S4096x128, .f32⟩
  | .local _ .vmem, ⟨29, _⟩ => ⟨S4096x1, .f32⟩
  | .local _ .vmem, ⟨30, _⟩ => ⟨S4096x1, .f32⟩
  | .local _ .vmem, ⟨31, _⟩ => ⟨S128x128, .f32⟩
  | .local _ .vmem, ⟨32, _⟩ => ⟨S128, .f32⟩
  | .local _ .vmem, ⟨33, _⟩ => ⟨S4096x128, .f32⟩
  | .local _ .vmem, ⟨34, _⟩ => ⟨S4096x128, .f32⟩
  | _, _ => ⟨S131072x74, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_c_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg4_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem4_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x74 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S74x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4096x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4096x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S1048576 : S_.BroadcastsInDim S1048576 (![] : Fin 0 → Fin S1048576.rank)
  bcast_S_S131072 : S_.BroadcastsInDim S131072 (![] : Fin 0 → Fin S131072.rank)
  bcast_S1048576_S1048576x1_0 : S1048576.BroadcastsInDim S1048576x1 (![0] : Fin 1 → Fin S1048576x1.rank)
  shapeCasts_S131072_S131072x1 : S131072.ShapeCasts S131072x1
  inb_S4096x74_S4096x74_0_0 : ∀ a, (![0, 0] : Fin 2 → Nat) a + S4096x74.size a ≤ S4096x74.size a
  h_S4096x74 : 0 < S4096x74.numel
  bitsLt_bf16_f32 : FTy.bits .bf16 < FTy.bits .f32
  inb_S74x128_S74x128_0_0 : ∀ a, (![0, 0] : Fin 2 → Nat) a + S74x128.size a ≤ S74x128.size a
  h_S74x128 : 0 < S74x128.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  inb_S4096x128_S4096x128_0_0 : ∀ a, (![0, 0] : Fin 2 → Nat) a + S4096x128.size a ≤ S4096x128.size a
  h_S4096x128 : 0 < S4096x128.numel
  packedbf16_S4096x128_S4096x128_0_0 : (Rect.unit (s := S4096x128) ![0, 0] S4096x128.size inb_S4096x128_S4096x128_0_0).PackedRows (EltTy.packing .bf16)
  bcast_S_S131072x128 : S_.BroadcastsInDim S131072x128 (![] : Fin 0 → Fin S131072x128.rank)
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  shapeCasts_S131072x128_S256x512x128 : S131072x128.ShapeCasts S256x512x128
  scatter_S131072_S1048576x1_S1048576_n_0_0_1_wf : ScatterDims.WF S131072 S1048576x1 S1048576 [] [0] [0] 1
  dot_S4096x74_S74x128_S4096x128_1_0_0_1_n_n_wf : DotDims.WF S4096x74 S74x128 S4096x128 [1] [0] [0] [1] [] []
  gather_S131072x128_S1048576x1_S1048576x128_1_0_n_n_0_1_1128_wf : GatherDims.WF S131072x128 S1048576x1 S1048576x128 [1] [0] [] [0] [] 1 ![1, 128]
  scatter_S131072x128_S1048576x1_S1048576x128_1_0_0_1_wf : ScatterDims.WF S131072x128 S1048576x1 S1048576x128 [1] [0] [0] 1
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x74.size a ≤ S131072x74.size a
  hwx0_0 : ∀ i : grid0.Coords, EltTy.bits .f32 = 32 ∨ (Rect.block (s := S131072x74) S4096x74.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S74x128.size a ≤ S74x128.size a
  hwx0_1 : ∀ i : grid0.Coords, EltTy.bits .f32 = 32 ∨ (Rect.block (s := S74x128) S74x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S131072x1.size a
  hwx0_2 : ∀ i : grid0.Coords, EltTy.bits .f32 = 32 ∨ (Rect.block (s := S131072x1) S4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S131072x128.size a
  hwx0_3 : ∀ i : grid0.Coords, EltTy.bits .bf16 = 32 ∨ (Rect.block (s := S131072x128) S4096x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S131072x128.size a
  hwx1_0 : ∀ i : grid1.Coords, EltTy.bits .f32 = 32 ∨ (Rect.block (s := S131072x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S131072x1.size a
  hwx1_1 : ∀ i : grid1.Coords, EltTy.bits .f32 = 32 ∨ (Rect.block (s := S131072x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S131072x1.size a
  hwx1_2 : ∀ i : grid1.Coords, EltTy.bits .f32 = 32 ∨ (Rect.block (s := S131072x1) S4096x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S131072x128.size a
  hwx1_5 : ∀ i : grid1.Coords, EltTy.bits .bf16 = 32 ∨ (Rect.block (s := S131072x128) S4096x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S131072x128.size a
  hwx2_0 : ∀ i : grid2.Coords, EltTy.bits .f32 = 32 ∨ (Rect.block (s := S131072x128) S4096x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S131072x1.size a
  hwx2_1 : ∀ i : grid2.Coords, EltTy.bits .f32 = 32 ∨ (Rect.block (s := S131072x1) S4096x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x1.size a ≤ S131072x1.size a
  hwx2_2 : ∀ i : grid2.Coords, EltTy.bits .f32 = 32 ∨ (Rect.block (s := S131072x1) S4096x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4096x128.size a ≤ S131072x128.size a
  hwx2_5 : ∀ i : grid2.Coords, EltTy.bits .bf16 = 32 ∨ (Rect.block (s := S131072x128) S4096x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S131072x128.size a
  hwx3_0 : ∀ i : grid3.Coords, EltTy.bits .f32 = 32 ∨ (Rect.block (s := S131072x128) S4096x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S131072x1.size a
  hwx3_1 : ∀ i : grid3.Coords, EltTy.bits .f32 = 32 ∨ (Rect.block (s := S131072x1) S4096x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4096x128.size a ≤ S131072x128.size a
  hwx3_4 : ∀ i : grid3.Coords, EltTy.bits .f32 = 32 ∨ (Rect.block (s := S131072x128) S4096x128.size (cc3_transform_4 i) (hinb3_4 i)).WholeWords (EltTy.packing .f32)

variable [Facts₀]

def scatter_S131072_S1048576x1_S1048576_n_0_0_1 : ScatterDims S131072 S1048576x1 S1048576 where
  updateWindowDims := []
  insertedWindowDims := [0]
  scatterDimsToOperandDims := [0]
  indexVectorDim := 1
  wf := scatter_S131072_S1048576x1_S1048576_n_0_0_1_wf
def dot_S4096x74_S74x128_S4096x128_1_0_0_1_n_n : DotDims S4096x74 S74x128 S4096x128 where
  lhsContracting := [1]
  rhsContracting := [0]
  lhsNonContracting := [0]
  rhsNonContracting := [1]
  lhsBatch := []
  rhsBatch := []
  wf := dot_S4096x74_S74x128_S4096x128_1_0_0_1_n_n_wf
def gather_S131072x128_S1048576x1_S1048576x128_1_0_n_n_0_1_1128 : GatherDims S131072x128 S1048576x1 S1048576x128 where
  offsetDims := [1]
  collapsedSliceDims := [0]
  operandBatchingDims := []
  startIndicesBatchingDims := []
  startIndexMap := [0]
  indexVectorDim := 1
  sliceSizes := ![1, 128]
  wf := gather_S131072x128_S1048576x1_S1048576x128_1_0_n_n_0_1_1128_wf
def scatter_S131072x128_S1048576x1_S1048576x128_1_0_0_1 : ScatterDims S131072x128 S1048576x1 S1048576x128 where
  updateWindowDims := [1]
  insertedWindowDims := [0]
  scatterDimsToOperandDims := [0]
  indexVectorDim := 1
  wf := scatter_S131072x128_S1048576x1_S1048576x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S4096x74.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S74x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S4096x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S4096x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S4096x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S4096x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S4096x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S131072x74 : Shape := ⟨2, ![131072, 74]⟩
abbrev S1048576 : Shape := ⟨1, ![1048576]⟩
abbrev S74x128 : Shape := ⟨2, ![74, 128]⟩
abbrev S128x128 : Shape := ⟨2, ![128, 128]⟩
abbrev S128 : Shape := ⟨1, ![128]⟩
abbrev S131072x128 : Shape := ⟨2, ![131072, 128]⟩
abbrev S_ : Shape := ⟨0, ![]⟩
abbrev S131072 : Shape := ⟨1, ![131072]⟩
abbrev S1048576x1 : Shape := ⟨2, ![1048576, 1]⟩
abbrev S131072x1 : Shape := ⟨2, ![131072, 1]⟩
abbrev S1048576x128 : Shape := ⟨2, ![1048576, 128]⟩
abbrev S1x128 : Shape := ⟨2, ![1, 128]⟩
abbrev S256x512x128 : Shape := ⟨3, ![256, 512, 128]⟩

abbrev nBuf : Space → Nat
  | .hbm => 110
  | .vmem => 0
  | .smem => 0
  | _ => 0

abbrev bufTy : (tb : Table) → Fin (tcTables nBuf tb) → BufTy
  | .hbm, ⟨0, _⟩ => ⟨S131072x74, .f32⟩
  | .hbm, ⟨1, _⟩ => ⟨S1048576, .i32⟩
  | .hbm, ⟨2, _⟩ => ⟨S1048576, .i32⟩
  | .hbm, ⟨3, _⟩ => ⟨S74x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S131072x128, .f32⟩
  | .hbm, ⟨11, _⟩ => ⟨S_, .f32⟩
  | .hbm, ⟨12, _⟩ => ⟨S1048576, .f32⟩
  | .hbm, ⟨13, _⟩ => ⟨S_, .f32⟩
  | .hbm, ⟨14, _⟩ => ⟨S131072, .f32⟩
  | .hbm, ⟨15, _⟩ => ⟨S1048576x1, .i32⟩
  | .hbm, ⟨16, _⟩ => ⟨S131072, .f32⟩
  | .hbm, ⟨17, _⟩ => ⟨S_, .f32⟩
  | .hbm, ⟨18, _⟩ => ⟨S131072, .f32⟩
  | .hbm, ⟨19, _⟩ => ⟨S1048576x1, .i32⟩
  | .hbm, ⟨20, _⟩ => ⟨S131072, .f32⟩
  | .hbm, ⟨21, _⟩ => ⟨S_, .f32⟩
  | .hbm, ⟨22, _⟩ => ⟨S_, .f32⟩
  | .hbm, ⟨23, _⟩ => ⟨S131072, .f32⟩
  | .hbm, ⟨24, _⟩ => ⟨S131072, .f32⟩
  | .hbm, ⟨25, _⟩ => ⟨S131072, .f32⟩
  | .hbm, ⟨26, _⟩ => ⟨S_, .f32⟩
  | .hbm, ⟨27, _⟩ => ⟨S_, .f32⟩
  | .hbm, ⟨28, _⟩ => ⟨S131072, .f32⟩
  | .hbm, ⟨29, _⟩ => ⟨S131072, .f32⟩
  | .hbm, ⟨30, _⟩ => ⟨S131072, .f32⟩
  | .hbm, ⟨31, _⟩ => ⟨S131072x1, .f32⟩
  | .hbm, ⟨32, _⟩ => ⟨S131072x128, .f32⟩
  | .hbm, ⟨33, _⟩ => ⟨S131072x128, .f32⟩
  | .hbm, ⟨34, _⟩ => ⟨S_, .i32⟩
  | .hbm, ⟨35, _⟩ => ⟨S1048576, .i32⟩
  | .hbm, ⟨36, _⟩ => ⟨S1048576, .i1⟩
  | .hbm, ⟨37, _⟩ => ⟨S_, .i32⟩
  | .hbm, ⟨38, _⟩ => ⟨S1048576, .i32⟩
  | .hbm, ⟨39, _⟩ => ⟨S1048576, .i32⟩
  | .hbm, ⟨40, _⟩ => ⟨S1048576, .i32⟩
  | .hbm, ⟨41, _⟩ => ⟨S1048576x1, .i32⟩
  | .hbm, ⟨42, _⟩ => ⟨S1048576x128, .f32⟩
  | .hbm, ⟨43, _⟩ => ⟨S_, .f32⟩
  | .hbm, ⟨44, _⟩ => ⟨S131072x128, .f32⟩
  | .hbm, ⟨45, _⟩ => ⟨S1048576x1, .i32⟩
  | .hbm, ⟨46, _⟩ => ⟨S131072x128, .f32⟩
  | .hbm, ⟨47, _⟩ => ⟨S131072x1, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S1x128, .f32⟩
  | .hbm, ⟨52, _⟩ => ⟨S131072x128, .f32⟩
  | .hbm, ⟨53, _⟩ => ⟨S131072x128, .f32⟩
  | .hbm, ⟨54, _⟩ => ⟨S_, .f32⟩
  | .hbm, ⟨55, _⟩ => ⟨S131072x128, .f32⟩
  | .hbm, ⟨56, _⟩ => ⟨S131072x128, .f32⟩
  | .hbm, ⟨57, _⟩ => ⟨S131072x1, .f32⟩
  | .hbm, ⟨58, _⟩ => ⟨S131072x128, .f32⟩
  | .hbm, ⟨59, _⟩ => ⟨S131072x128, .f32⟩
  | .hbm, ⟨60, _⟩ => ⟨S_, .i32⟩
  | .hbm, ⟨61, _⟩ => ⟨S1048576, .i32⟩
  | .hbm, ⟨62, _⟩ => ⟨S1048576, .i1⟩
  | .hbm, ⟨63, _⟩ => ⟨S_, .i32⟩
  | .hbm, ⟨64, _⟩ => ⟨S1048576, .i32⟩
  | .hbm, ⟨65, _⟩ => ⟨S1048576, .i32⟩
  | .hbm, ⟨66, _⟩ => ⟨S1048576, .i32⟩
  | .hbm, ⟨67, _⟩ => ⟨S1048576x1, .i32⟩
  | .hbm, ⟨68, _⟩ => ⟨S1048576x128, .f32⟩
  | .hbm, ⟨69, _⟩ => ⟨S_, .f32⟩
  | .hbm, ⟨70, _⟩ => ⟨S131072x128, .f32⟩
  | .hbm, ⟨71, _⟩ => ⟨S1048576x1, .i32⟩
  | .hbm, ⟨72, _⟩ => ⟨S131072x128, .f32⟩
  | .hbm, ⟨73, _⟩ => ⟨S131072x1, .f32⟩
  | .hbm, ⟨74, _⟩ => ⟨S131072x128, .f32⟩
  | .hbm, ⟨75, _⟩ => ⟨S131072x128, .f32⟩
  | .hbm, ⟨76, _⟩ => ⟨S131072x128, .f32⟩
  | .hbm, ⟨77, _⟩ => ⟨S1x128, .f32⟩
  | .hbm, ⟨78, _⟩ => ⟨S131072x128, .f32⟩
  | .hbm, ⟨79, _⟩ => ⟨S131072x128, .f32⟩
  | .hbm, ⟨80, _⟩ => ⟨S_, .f32⟩
  | .hbm, ⟨81, _⟩ => ⟨S131072x128, .f32⟩
  | .hbm, ⟨82, _⟩ => ⟨S131072x128, .f32⟩
  | .hbm, ⟨83, _⟩ => ⟨S131072x1, .f32⟩
  | .hbm, ⟨84, _⟩ => ⟨S131072x128, .f32⟩
  | .hbm, ⟨85, _⟩ => ⟨S131072x128, .f32⟩
  | .hbm, ⟨86, _⟩ => ⟨S_, .i32⟩
  | .hbm, ⟨87, _⟩ => ⟨S1048576, .i32⟩
  | .hbm, ⟨88, _⟩ => ⟨S1048576, .i1⟩
  | .hbm, ⟨89, _⟩ => ⟨S_, .i32⟩
  | .hbm, ⟨90, _⟩ => ⟨S1048576, .i32⟩
  | .hbm, ⟨91, _⟩ => ⟨S1048576, .i32⟩
  | .hbm, ⟨92, _⟩ => ⟨S1048576, .i32⟩
  | .hbm, ⟨93, _⟩ => ⟨S1048576x1, .i32⟩
  | .hbm, ⟨94, _⟩ => ⟨S1048576x128, .f32⟩
  | .hbm, ⟨95, _⟩ => ⟨S_, .f32⟩
  | .hbm, ⟨96, _⟩ => ⟨S131072x128, .f32⟩
  | .hbm, ⟨97, _⟩ => ⟨S1048576x1, .i32⟩
  | .hbm, ⟨98, _⟩ => ⟨S131072x128, .f32⟩
  | .hbm, ⟨99, _⟩ => ⟨S131072x1, .f32⟩
  | .hbm, ⟨100, _⟩ => ⟨S131072x128, .f32⟩
  | .hbm, ⟨101, _⟩ => ⟨S131072x128, .f32⟩
  | .hbm, ⟨102, _⟩ => ⟨S131072x128, .f32⟩
  | .hbm, ⟨103, _⟩ => ⟨S1x128, .f32⟩
  | .hbm, ⟨104, _⟩ => ⟨S131072x128, .f32⟩
  | .hbm, ⟨105, _⟩ => ⟨S131072x128, .f32⟩
  | .hbm, ⟨106, _⟩ => ⟨S_, .f32⟩
  | .hbm, ⟨107, _⟩ => ⟨S131072x128, .f32⟩
  | .hbm, ⟨108, _⟩ => ⟨S131072x128, .f32⟩
  | .hbm, ⟨109, _⟩ => ⟨S256x512x128, .f32⟩
  | _, _ => ⟨S131072x74, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v8 : Ref sig .tc := ⟨.hbm, 24, rfl⟩
abbrev main_v9 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call2_cst : Ref sig .tc := ⟨.hbm, 54, rfl⟩
abbrev main_call2_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call3_cst : Ref sig .tc := ⟨.hbm, 80, rfl⟩
abbrev main_call3_v0 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_9 : Ref sig .tc := ⟨.hbm, 86, rfl⟩
abbrev main_v57 : Ref sig .tc := ⟨.hbm, 87, rfl⟩
abbrev main_v58 : Ref sig .tc := ⟨.hbm, 88, rfl⟩
abbrev main_c_10 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_11 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call4_cst : Ref sig .tc := ⟨.hbm, 106, rfl⟩
abbrev main_call4_v0 : Ref sig .tc := ⟨.hbm, 107, rfl⟩
abbrev main_v74 : Ref sig .tc := ⟨.hbm, 108, rfl⟩
abbrev main_v75 : Ref sig .tc := ⟨.hbm, 109, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S_S131072 : S_.BroadcastsInDim S131072 (![] : Fin 0 → Fin S131072.rank)
  bcast_S1048576_S1048576x1_0 : S1048576.BroadcastsInDim S1048576x1 (![0] : Fin 1 → Fin S1048576x1.rank)
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  bcast_S_S131072x128 : S_.BroadcastsInDim S131072x128 (![] : Fin 0 → Fin S131072x128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  shapeCasts_S131072x128_S256x512x128 : S131072x128.ShapeCasts S256x512x128
  dot_S131072x74_S74x128_S131072x128_1_0_0_1_n_n_wf : DotDims.WF S131072x74 S74x128 S131072x128 [1] [0] [0] [1] [] []
  scatter_S131072_S1048576x1_S1048576_n_0_0_1_wf : ScatterDims.WF S131072 S1048576x1 S1048576 [] [0] [0] 1
  gather_S131072x128_S1048576x1_S1048576x128_1_0_n_n_0_1_1128_wf : GatherDims.WF S131072x128 S1048576x1 S1048576x128 [1] [0] [] [0] [] 1 ![1, 128]
  scatter_S131072x128_S1048576x1_S1048576x128_1_0_0_1_wf : ScatterDims.WF S131072x128 S1048576x1 S1048576x128 [1] [0] [0] 1
  dot_S131072x128_S128x128_S131072x128_1_0_0_1_n_n_wf : DotDims.WF S131072x128 S128x128 S131072x128 [1] [0] [0] [1] [] []

variable [Facts₀]

def dot_S131072x74_S74x128_S131072x128_1_0_0_1_n_n : DotDims S131072x74 S74x128 S131072x128 where
  lhsContracting := [1]
  rhsContracting := [0]
  lhsNonContracting := [0]
  rhsNonContracting := [1]
  lhsBatch := []
  rhsBatch := []
  wf := dot_S131072x74_S74x128_S131072x128_1_0_0_1_n_n_wf
def scatter_S131072_S1048576x1_S1048576_n_0_0_1 : ScatterDims S131072 S1048576x1 S1048576 where
  updateWindowDims := []
  insertedWindowDims := [0]
  scatterDimsToOperandDims := [0]
  indexVectorDim := 1
  wf := scatter_S131072_S1048576x1_S1048576_n_0_0_1_wf
def gather_S131072x128_S1048576x1_S1048576x128_1_0_n_n_0_1_1128 : GatherDims S131072x128 S1048576x1 S1048576x128 where
  offsetDims := [1]
  collapsedSliceDims := [0]
  operandBatchingDims := []
  startIndicesBatchingDims := []
  startIndexMap := [0]
  indexVectorDim := 1
  sliceSizes := ![1, 128]
  wf := gather_S131072x128_S1048576x1_S1048576x128_1_0_n_n_0_1_1128_wf
def scatter_S131072x128_S1048576x1_S1048576x128_1_0_0_1 : ScatterDims S131072x128 S1048576x1 S1048576x128 where
  updateWindowDims := [1]
  insertedWindowDims := [0]
  scatterDimsToOperandDims := [0]
  indexVectorDim := 1
  wf := scatter_S131072x128_S1048576x1_S1048576x128_1_0_0_1_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.Spec.lean ====
/-
  The function both programs compute, written once over whole arrays with the host operations of the reference
  (exact extended-real arithmetic): a three-layer graph convolution over a batched graph of 131072 nodes and
  1048576 edges.
    degree norms   ns = rsqrt (max 1 (#edges leaving the node)),  nd = rsqrt (max 1 (#edges entering the node))
    embedding      t₀ = (x · W_init) ⊙ ns                                   (each row scaled by its node's ns)
    message pass   agg t = Σ over edges e with dst e = node of t[src e]      (gather the rows at src, add them up at dst)
    a layer        h = max ((agg t ⊙ nd) · W + b) 0,   next table t' = h ⊙ ns
  and the result is the third layer's h, re-laid as [256, 512, 128]. The gather and the scatter-add stay the host
  operations they are on both sides: nothing below opens them.
-/
import proofs.«125973_j56427280335071_2_alg».proof.Proof.Gen.ReferenceIdeal
import Idealize.ShloMosaic.PureOps.Ideal

noncomputable section

namespace Cert.Spec

open Idealize.ShloMosaic Cert.ReferenceIdeal

open Cert.ReferenceIdeal.Facts₀ Cert.ReferenceIdeal.Facts

/-- The all-zero [131072, 128] array a scatter-add starts from (and relu's other operand). -/
def zeros : FVec Ideal S131072x128 .f32 :=
  broadcastInDim S131072x128 ![] bcast_S_S131072x128 (constant (F := Ideal) S_ .f32 0x00000000#32)

/-- A node's degree norm from one end of the edge list: rsqrt (max 1 (number of edges whose end is the node)), as a
    column [131072, 1]. The count is the scatter-add of ones into zeros at the edge ends. -/
def nrm (ends : IVec S1048576 32) : FVec Ideal S131072x1 .f32 :=
  broadcastInDim S131072x1 ![0] bcast_S131072_S131072x1_0 (Host.rsqrt (F := Ideal) (maximumf (broadcastInDim S131072 ![] bcast_S_S131072 (id (constant (F := Ideal) S_ .f32 0x3F800000#32))) (Host.scatterAdd (F := Ideal) scatter_S131072_S1048576x1_S1048576_n_0_0_1 (broadcastInDim S131072 ![] bcast_S_S131072 (constant (F := Ideal) S_ .f32 0x00000000#32)) (broadcastInDim S1048576x1 ![0] bcast_S1048576_S1048576x1_0 ends) (broadcastInDim S1048576 ![] bcast_S_S1048576 (constant (F := Ideal) S_ .f32 0x3F800000#32)))))

/-- The rows a gather takes: the edge sources, a negative one counted from the end of the table. -/
def srcRows (src : IVec S1048576 32) : IVec S1048576x1 32 :=
  broadcastInDim S1048576x1 ![0] bcast_S1048576_S1048576x1_0 (select (cmpi .slt src (broadcastInDim S1048576 ![] bcast_S_S1048576 (constantI S_ 32 0#32))) (addi src (broadcastInDim S1048576 ![] bcast_S_S1048576 (constantI S_ 32 131072#32))) src)

/-- One message pass over the table `t`: gather its rows at the edge sources, add them up at the edge destinations. -/
def msg (src dst : IVec S1048576 32) (t : FVec Ideal S131072x128 .f32) :
    FVec Ideal S131072x128 .f32 :=
  Host.scatterAdd (F := Ideal) scatter_S131072x128_S1048576x1_S1048576x128_1_0_0_1 zeros (broadcastInDim S1048576x1 ![0] bcast_S1048576_S1048576x1_0 dst) (Host.gather gather_S131072x128_S1048576x1_S1048576x128_1_0_n_n_0_1_1128 t (srcRows src))

/-- The embedding: (x · W_init), each row scaled by its node's out-degree norm. -/
def embed (x : FVec Ideal S131072x74 .f32) (w : FVec Ideal S74x128 .f32)
    (ns : FVec Ideal S131072x1 .f32) : FVec Ideal S131072x128 .f32 :=
  mulf (Host.dotGeneral (F := Ideal) dot_S131072x74_S74x128_S131072x128_1_0_0_1_n_n none x w) (broadcastInDim S131072x128 ![0, 1] bcast_S131072x1_S131072x128_0_1 ns)

/-- A layer's hidden state: max ((agg ⊙ nd) · W + b) 0. -/
def hidden (agg : FVec Ideal S131072x128 .f32) (nd : FVec Ideal S131072x1 .f32)
    (w : FVec Ideal S128x128 .f32) (b : FVec Ideal S128 .f32) :
    FVec Ideal S131072x128 .f32 :=
  maximumf (addf (Host.dotGeneral (F := Ideal) dot_S131072x128_S128x128_S131072x128_1_0_0_1_n_n none (mulf agg (broadcastInDim S131072x128 ![0, 1] bcast_S131072x1_S131072x128_0_1 nd)) w) (broadcastInDim S131072x128 ![0, 1] bcast_S1x128_S131072x128_0_1 (broadcastInDim S1x128 ![1] bcast_S128_S1x128_1 b))) zeros

/-- A layer's table for the next message pass: its hidden state, each row scaled by its node's out-degree norm. -/
def table (agg : FVec Ideal S131072x128 .f32) (nd ns : FVec Ideal S131072x1 .f32)
    (w : FVec Ideal S128x128 .f32) (b : FVec Ideal S128 .f32) :
    FVec Ideal S131072x128 .f32 :=
  mulf (hidden agg nd w b) (broadcastInDim S131072x128 ![0, 1] bcast_S131072x1_S131072x128_0_1 ns)

/-- The whole network as one function of the ten argument arrays. -/
def gcn (x : FVec Ideal S131072x74 .f32) (src dst : IVec S1048576 32)
    (wi : FVec Ideal S74x128 .f32)
    (w1 : FVec Ideal S128x128 .f32) (b1 : FVec Ideal S128 .f32)
    (w2 : FVec Ideal S128x128 .f32) (b2 : FVec Ideal S128 .f32)
    (w3 : FVec Ideal S128x128 .f32) (b3 : FVec Ideal S128 .f32) :
    FVec Ideal S256x512x128 .f32 :=
  shapeCast _ (hidden (msg src dst (table (msg src dst (table (msg src dst (embed x wi (nrm src))) (nrm dst) (nrm src) w1 b1)) (nrm dst) (nrm src) w2 b2)) (nrm dst) w3 b3) shapeCasts_S131072x128_S256x512x128

end Cert.Spec

end
-- ==== Proof.RefValue.lean ====
/-
  The reference's result is the network function of its argument arrays: its host program, read back as one term, is
  that function's text.
-/
import proofs.«125973_j56427280335071_2_alg».proof.Proof.Gen.ReferenceIdeal.Run
import proofs.«125973_j56427280335071_2_alg».proof.Proof.Spec

noncomputable section

namespace Cert.ReferenceIdeal.RefValue

open Idealize.ShloMosaic Idealize.ShloMosaic.TcCoe Idealize.SL.Sem Cert.ReferenceIdeal Cert.ReferenceIdeal.Gen

set_option maxRecDepth 8192 in
/-- The reference's result array, as the run states it, is `Cert.Spec.gcn` of the ten arguments. -/
theorem result_eq (m : (ℓ : Loc nD τ sig) → Buf (Elt Ideal) ℓ) (c : Dev nD) :
    Cert.ReferenceIdeal.Value.res_main_v75 (F := Ideal) m c
      = Cert.Spec.gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  unfold Cert.ReferenceIdeal.Value.res_main_v75 Cert.Spec.gcn Cert.Spec.hidden Cert.Spec.table Cert.Spec.embed Cert.Spec.msg Cert.Spec.srcRows Cert.Spec.nrm Cert.Spec.zeros
  rfl

end Cert.ReferenceIdeal.RefValue

end
-- ==== Proof.KernelRun.lean ====
/-
  What the kernel program's buffers hold where its four regions are entered and where it returns, each as a term of
  the launch memory and of the previous region's output array.

  The program is a graph network of three layers after an embedding.  Before the first region the host computes the
  two degree normalisations (`degNorm`: count the edges at each node by a scatter-add of ones, clamp below at one,
  take the reciprocal square root, as a column); before each later region it computes the messages (`msg`: gather
  the previous layer's rows at the edges' sources, widen them, scatter-add them at the edges' targets).  Every other
  array a region reads is a launch argument that nothing writes, or one of the two normalisation columns, which the
  regions only read.  The last operation reshapes the last region's output.

  `run_result` is the run of the whole program with the result buffer's final contents beside the arguments';
  the `V1_`, `V3_`, `V5_`, `V7_` lemmas give the regions' entry contents and `W9_result` the result buffer.
-/
import proofs.«125973_j56427280335071_2_alg».proof.Proof.FrameKernelIdealP
import Idealize.ShloMosaic.Lib.StableHlo.Run
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

/-! ## The host's two computations -/

/-- The degree normalisation of an index array: the number of edges at each node (a scatter-add of ones into
    zeros), clamped below at one, its reciprocal square root, as a column. -/
def degNorm (idx : (⟨S1048576, .i32⟩ : BufTy).Contents (Elt F)) : (⟨S131072x1, .f32⟩ : BufTy).Contents (Elt F) :=
  shapeCast S131072x1
    (Host.rsqrt (maximumf
      (Host.scatterAdd scatter_S131072_S1048576x1_S1048576_n_0_0_1
        ((broadcastInDim S131072 ![] bcast_S_S131072 : (⟨S_, .f32⟩ : BufTy).Contents (Elt F) → (⟨S131072, .f32⟩ : BufTy).Contents (Elt F))
          (constant S_ .f32 0x00000000#32))
        ((broadcastInDim S1048576x1 ![0] bcast_S1048576_S1048576x1_0 : (⟨S1048576, .i32⟩ : BufTy).Contents (Elt F) → (⟨S1048576x1, .i32⟩ : BufTy).Contents (Elt F))
          idx)
        ((broadcastInDim S1048576 ![] bcast_S_S1048576 : (⟨S_, .f32⟩ : BufTy).Contents (Elt F) → (⟨S1048576, .f32⟩ : BufTy).Contents (Elt F))
          (constant S_ .f32 0x3F800000#32)))
      ((broadcastInDim S131072 ![] bcast_S_S131072 : (⟨S_, .f32⟩ : BufTy).Contents (Elt F) → (⟨S131072, .f32⟩ : BufTy).Contents (Elt F))
        (constant S_ .f32 0x3F800000#32)) : (⟨S131072, .f32⟩ : BufTy).Contents (Elt F)))
    shapeCasts_S131072_S131072x1

/-- The edges' sources, a negative index wrapped once by the number of nodes. -/
def srcIdx (src : (⟨S1048576, .i32⟩ : BufTy).Contents (Elt F)) : (⟨S1048576, .i32⟩ : BufTy).Contents (Elt F) :=
  select
    (cmpi .slt src
      ((broadcastInDim S1048576 ![] bcast_S_S1048576 : (⟨S_, .i32⟩ : BufTy).Contents (Elt F) → (⟨S1048576, .i32⟩ : BufTy).Contents (Elt F))
        (constantI S_ 32 0#32)) : (⟨S1048576, .i1⟩ : BufTy).Contents (Elt F))
    (addi src
      ((broadcastInDim S1048576 ![] bcast_S_S1048576 : (⟨S_, .i32⟩ : BufTy).Contents (Elt F) → (⟨S1048576, .i32⟩ : BufTy).Contents (Elt F))
        (constantI S_ 32 131072#32)))
    src

/-- One round of messages over the rows `t`: the rows at the edges' sources, widened, added up at the edges' targets. -/
def msg (src dst : (⟨S1048576, .i32⟩ : BufTy).Contents (Elt F)) (t : (⟨S131072x128, .bf16⟩ : BufTy).Contents (Elt F)) :
    (⟨S131072x128, .f32⟩ : BufTy).Contents (Elt F) :=
  Host.scatterAdd scatter_S131072x128_S1048576x1_S1048576x128_1_0_0_1
    ((broadcastInDim S131072x128 ![] bcast_S_S131072x128 : (⟨S_, .f32⟩ : BufTy).Contents (Elt F) → (⟨S131072x128, .f32⟩ : BufTy).Contents (Elt F))
      (constant S_ .f32 0x00000000#32))
    ((broadcastInDim S1048576x1 ![0] bcast_S1048576_S1048576x1_0 : (⟨S1048576, .i32⟩ : BufTy).Contents (Elt F) → (⟨S1048576x1, .i32⟩ : BufTy).Contents (Elt F))
      dst)
    (extf .f32
      (Host.gather gather_S131072x128_S1048576x1_S1048576x128_1_0_n_n_0_1_1128 t
        ((broadcastInDim S1048576x1 ![0] bcast_S1048576_S1048576x1_0 : (⟨S1048576, .i32⟩ : BufTy).Contents (Elt F) → (⟨S1048576x1, .i32⟩ : BufTy).Contents (Elt F))
          (srcIdx src)) : (⟨S1048576x128, .bf16⟩ : BufTy).Contents (Elt F))
      bitsLt_bf16_f32)

variable (m : (ℓ : Loc nD τ sig) → Buf (Elt F) ℓ) (ρ : Dev nD → PrngReg)

/-- The normalisation by the edges' sources (the out-degrees), from the launch memory. -/
def nsK (c : Dev nD) : Buf (Elt F) ((c.tc : Thread nD τ).loc main_v10) := degNorm (m ((c.tc : Thread nD τ).loc main_arg1))
/-- The normalisation by the edges' targets (the in-degrees), from the launch memory. -/
def ndK (c : Dev nD) : Buf (Elt F) ((c.tc : Thread nD τ).loc main_v14) := degNorm (m ((c.tc : Thread nD τ).loc main_arg2))
/-- One round of messages along the launch memory's edges. -/
def msgK (t : (⟨S131072x128, .bf16⟩ : BufTy).Contents (Elt F)) (c : Dev nD) : (⟨S131072x128, .f32⟩ : BufTy).Contents (Elt F) :=
  msg (m ((c.tc : Thread nD τ).loc main_arg1)) (m ((c.tc : Thread nD τ).loc main_arg2)) t

/-- A buffer that no operation of a host stretch writes holds after the stretch what it held before it; the
    writes are read off the stretch's literal list and compared with the buffer one by one. -/
local macro "unwritten " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## What each host stretch leaves in the buffer it computes, from any contents `V` -/

section Host
variable (V : Valuation τ sig (Elt F))

/-- The first stretch leaves in `%10` the normalisation by the index array `%arg1`, -/
theorem host0_v10 : StableHlo.after hostOps0 V (Proc.devRef .tc main_v10) = degNorm (V (Proc.devRef .tc main_arg1)) := by
  after_results; rfl
/-- and in `%14` the normalisation by `%arg2`. -/
theorem host0_v14 : StableHlo.after hostOps0 V (Proc.devRef .tc main_v14) = degNorm (V (Proc.devRef .tc main_arg2)) := by
  after_results; rfl
/-- The second stretch leaves in `%26` the messages over `%15`, -/
theorem host1_v26 : StableHlo.after hostOps1 V (Proc.devRef .tc main_v26)
    = msg (V (Proc.devRef .tc main_arg1)) (V (Proc.devRef .tc main_arg2)) (V (Proc.devRef .tc main_v15)) := by
  after_results_simp; rfl
/-- the third in `%38` the messages over `%27`, -/
theorem host2_v38 : StableHlo.after hostOps2 V (Proc.devRef .tc main_v38)
    = msg (V (Proc.devRef .tc main_arg1)) (V (Proc.devRef .tc main_arg2)) (V (Proc.devRef .tc main_v27)) := by
  after_results_simp; rfl
/-- the fourth in `%50` the messages over `%39`, -/
theorem host3_v50 : StableHlo.after hostOps3 V (Proc.devRef .tc main_v50)
    = msg (V (Proc.devRef .tc main_arg1)) (V (Proc.devRef .tc main_arg2)) (V (Proc.devRef .tc main_v39)) := by
  after_results_simp; rfl
/-- and the last in `%52` the rows of `%51` regrouped as 256 × 512. -/
theorem host4_v52 : StableHlo.after hostOps4 V (Proc.devRef .tc main_v52)
    = shapeCast S256x512x128 (V (Proc.devRef .tc main_v51)) shapeCasts_S131072x128_S256x512x128 := by
  after_results; rfl

end Host

/-! ## The launch arguments and the two normalisation columns, carried through the folds

Each lemma walks one buffer back from a boundary to the launch memory (an argument) or to the first host stretch
(a normalisation column): a host stretch that does not write it leaves it, a region of which it is no array leaves
it, and a region that reads it through an input window leaves the array as it was entered. -/

section Carried
variable (c : Dev nD)

/-! ### At the first region's entry -/

theorem W1_arg0 : W1 m ρ c (Proc.devRef .tc main_arg0) = m ((c.tc : Thread nD τ).loc main_arg0) :=
  (show StableHlo.after hostOps0 (W0 m ρ c) (Proc.devRef .tc main_arg0) = W0 m ρ c (Proc.devRef .tc main_arg0) by unwritten hostOps0).trans rfl
theorem W1_arg1 : W1 m ρ c (Proc.devRef .tc main_arg1) = m ((c.tc : Thread nD τ).loc main_arg1) :=
  (show StableHlo.after hostOps0 (W0 m ρ c) (Proc.devRef .tc main_arg1) = W0 m ρ c (Proc.devRef .tc main_arg1) by unwritten hostOps0).trans rfl
theorem W1_arg2 : W1 m ρ c (Proc.devRef .tc main_arg2) = m ((c.tc : Thread nD τ).loc main_arg2) :=
  (show StableHlo.after hostOps0 (W0 m ρ c) (Proc.devRef .tc main_arg2) = W0 m ρ c (Proc.devRef .tc main_arg2) by unwritten hostOps0).trans rfl
theorem W1_arg3 : W1 m ρ c (Proc.devRef .tc main_arg3) = m ((c.tc : Thread nD τ).loc main_arg3) :=
  (show StableHlo.after hostOps0 (W0 m ρ c) (Proc.devRef .tc main_arg3) = W0 m ρ c (Proc.devRef .tc main_arg3) by unwritten hostOps0).trans rfl
theorem W1_arg4 : W1 m ρ c (Proc.devRef .tc main_arg4) = m ((c.tc : Thread nD τ).loc main_arg4) :=
  (show StableHlo.after hostOps0 (W0 m ρ c) (Proc.devRef .tc main_arg4) = W0 m ρ c (Proc.devRef .tc main_arg4) by unwritten hostOps0).trans rfl
theorem W1_arg5 : W1 m ρ c (Proc.devRef .tc main_arg5) = m ((c.tc : Thread nD τ).loc main_arg5) :=
  (show StableHlo.after hostOps0 (W0 m ρ c) (Proc.devRef .tc main_arg5) = W0 m ρ c (Proc.devRef .tc main_arg5) by unwritten hostOps0).trans rfl
theorem W1_arg6 : W1 m ρ c (Proc.devRef .tc main_arg6) = m ((c.tc : Thread nD τ).loc main_arg6) :=
  (show StableHlo.after hostOps0 (W0 m ρ c) (Proc.devRef .tc main_arg6) = W0 m ρ c (Proc.devRef .tc main_arg6) by unwritten hostOps0).trans rfl
theorem W1_arg7 : W1 m ρ c (Proc.devRef .tc main_arg7) = m ((c.tc : Thread nD τ).loc main_arg7) :=
  (show StableHlo.after hostOps0 (W0 m ρ c) (Proc.devRef .tc main_arg7) = W0 m ρ c (Proc.devRef .tc main_arg7) by unwritten hostOps0).trans rfl
theorem W1_arg8 : W1 m ρ c (Proc.devRef .tc main_arg8) = m ((c.tc : Thread nD τ).loc main_arg8) :=
  (show StableHlo.after hostOps0 (W0 m ρ c) (Proc.devRef .tc main_arg8) = W0 m ρ c (Proc.devRef .tc main_arg8) by unwritten hostOps0).trans rfl
theorem W1_arg9 : W1 m ρ c (Proc.devRef .tc main_arg9) = m ((c.tc : Thread nD τ).loc main_arg9) :=
  (show StableHlo.after hostOps0 (W0 m ρ c) (Proc.devRef .tc main_arg9) = W0 m ρ c (Proc.devRef .tc main_arg9) by unwritten hostOps0).trans rfl

/-- The first host stretch leaves the out-degree normalisation in `%10`. -/
theorem W1_v10 : W1 m ρ c (Proc.devRef .tc main_v10) = nsK m c := host0_v10 (W0 m ρ c)
/-- The first host stretch leaves the in-degree normalisation in `%14`. -/
theorem W1_v14 : W1 m ρ c (Proc.devRef .tc main_v14) = ndK m c := host0_v14 (W0 m ρ c)

/-! ### At the first region's exit -/

theorem W2_arg1 : W2 m ρ c (Proc.devRef .tc main_arg1) = m ((c.tc : Thread nD τ).loc main_arg1) :=
  (W2_of_ne m ρ c main_arg1 (by decide)).trans (W1_arg1 m ρ c)
theorem W2_arg2 : W2 m ρ c (Proc.devRef .tc main_arg2) = m ((c.tc : Thread nD τ).loc main_arg2) :=
  (W2_of_ne m ρ c main_arg2 (by decide)).trans (W1_arg2 m ρ c)
theorem W2_arg4 : W2 m ρ c (Proc.devRef .tc main_arg4) = m ((c.tc : Thread nD τ).loc main_arg4) :=
  (W2_of_ne m ρ c main_arg4 (by decide)).trans (W1_arg4 m ρ c)
theorem W2_arg5 : W2 m ρ c (Proc.devRef .tc main_arg5) = m ((c.tc : Thread nD τ).loc main_arg5) :=
  (W2_of_ne m ρ c main_arg5 (by decide)).trans (W1_arg5 m ρ c)
theorem W2_arg6 : W2 m ρ c (Proc.devRef .tc main_arg6) = m ((c.tc : Thread nD τ).loc main_arg6) :=
  (W2_of_ne m ρ c main_arg6 (by decide)).trans (W1_arg6 m ρ c)
theorem W2_arg7 : W2 m ρ c (Proc.devRef .tc main_arg7) = m ((c.tc : Thread nD τ).loc main_arg7) :=
  (W2_of_ne m ρ c main_arg7 (by decide)).trans (W1_arg7 m ρ c)
theorem W2_arg8 : W2 m ρ c (Proc.devRef .tc main_arg8) = m ((c.tc : Thread nD τ).loc main_arg8) :=
  (W2_of_ne m ρ c main_arg8 (by decide)).trans (W1_arg8 m ρ c)
theorem W2_arg9 : W2 m ρ c (Proc.devRef .tc main_arg9) = m ((c.tc : Thread nD τ).loc main_arg9) :=
  (W2_of_ne m ρ c main_arg9 (by decide)).trans (W1_arg9 m ρ c)
/-- The first region reads `%10` through its input window 2: the array is left as entered. -/
theorem W2_v10 : W2 m ρ c (Proc.devRef .tc main_v10) = nsK m c :=
  ((W2_arr m ρ c 2).trans (((dat0 (V1 m ρ) c).arrAt_in 2 rfl _).trans (A_eq0 (V1 m ρ) c 2))).trans (W1_v10 m ρ c)
theorem W2_v14 : W2 m ρ c (Proc.devRef .tc main_v14) = ndK m c :=
  (W2_of_ne m ρ c main_v14 (by decide)).trans (W1_v14 m ρ c)
/-- The first region's output array `%15` ends at what its write-backs leave. -/
theorem W2_v15 : W2 m ρ c (Proc.devRef .tc main_v15) = (dat0 (V1 m ρ) c).arrAt 3 cfg0.N := W2_arr m ρ c 3

/-! ### At the second region's entry -/

theorem W3_arg1 : W3 m ρ c (Proc.devRef .tc main_arg1) = m ((c.tc : Thread nD τ).loc main_arg1) :=
  (show StableHlo.after hostOps1 (W2 m ρ c) (Proc.devRef .tc main_arg1) = W2 m ρ c (Proc.devRef .tc main_arg1) by unwritten hostOps1).trans (W2_arg1 m ρ c)
theorem W3_arg2 : W3 m ρ c (Proc.devRef .tc main_arg2) = m ((c.tc : Thread nD τ).loc main_arg2) :=
  (show StableHlo.after hostOps1 (W2 m ρ c) (Proc.devRef .tc main_arg2) = W2 m ρ c (Proc.devRef .tc main_arg2) by unwritten hostOps1).trans (W2_arg2 m ρ c)
theorem W3_arg4 : W3 m ρ c (Proc.devRef .tc main_arg4) = m ((c.tc : Thread nD τ).loc main_arg4) :=
  (show StableHlo.after hostOps1 (W2 m ρ c) (Proc.devRef .tc main_arg4) = W2 m ρ c (Proc.devRef .tc main_arg4) by unwritten hostOps1).trans (W2_arg4 m ρ c)
theorem W3_arg5 : W3 m ρ c (Proc.devRef .tc main_arg5) = m ((c.tc : Thread nD τ).loc main_arg5) :=
  (show StableHlo.after hostOps1 (W2 m ρ c) (Proc.devRef .tc main_arg5) = W2 m ρ c (Proc.devRef .tc main_arg5) by unwritten hostOps1).trans (W2_arg5 m ρ c)
theorem W3_arg6 : W3 m ρ c (Proc.devRef .tc main_arg6) = m ((c.tc : Thread nD τ).loc main_arg6) :=
  (show StableHlo.after hostOps1 (W2 m ρ c) (Proc.devRef .tc main_arg6) = W2 m ρ c (Proc.devRef .tc main_arg6) by unwritten hostOps1).trans (W2_arg6 m ρ c)
theorem W3_arg7 : W3 m ρ c (Proc.devRef .tc main_arg7) = m ((c.tc : Thread nD τ).loc main_arg7) :=
  (show StableHlo.after hostOps1 (W2 m ρ c) (Proc.devRef .tc main_arg7) = W2 m ρ c (Proc.devRef .tc main_arg7) by unwritten hostOps1).trans (W2_arg7 m ρ c)
theorem W3_arg8 : W3 m ρ c (Proc.devRef .tc main_arg8) = m ((c.tc : Thread nD τ).loc main_arg8) :=
  (show StableHlo.after hostOps1 (W2 m ρ c) (Proc.devRef .tc main_arg8) = W2 m ρ c (Proc.devRef .tc main_arg8) by unwritten hostOps1).trans (W2_arg8 m ρ c)
theorem W3_arg9 : W3 m ρ c (Proc.devRef .tc main_arg9) = m ((c.tc : Thread nD τ).loc main_arg9) :=
  (show StableHlo.after hostOps1 (W2 m ρ c) (Proc.devRef .tc main_arg9) = W2 m ρ c (Proc.devRef .tc main_arg9) by unwritten hostOps1).trans (W2_arg9 m ρ c)
theorem W3_v10 : W3 m ρ c (Proc.devRef .tc main_v10) = nsK m c :=
  (show StableHlo.after hostOps1 (W2 m ρ c) (Proc.devRef .tc main_v10) = W2 m ρ c (Proc.devRef .tc main_v10) by unwritten hostOps1).trans (W2_v10 m ρ c)
theorem W3_v14 : W3 m ρ c (Proc.devRef .tc main_v14) = ndK m c :=
  (show StableHlo.after hostOps1 (W2 m ρ c) (Proc.devRef .tc main_v14) = W2 m ρ c (Proc.devRef .tc main_v14) by unwritten hostOps1).trans (W2_v14 m ρ c)
/-- The second host stretch leaves in `%26` the messages over the first region's output. -/
theorem W3_v26 : W3 m ρ c (Proc.devRef .tc main_v26) = msgK m ((dat0 (V1 m ρ) c).arrAt 3 cfg0.N) c :=
  (host1_v26 (W2 m ρ c)).trans (by
    rw [W2_arg1 m ρ c, W2_arg2 m ρ c, W2_v15 m ρ c]; first | done | rfl)

/-! ### At the second region's exit -/

theorem W4_arg1 : W4 m ρ c (Proc.devRef .tc main_arg1) = m ((c.tc : Thread nD τ).loc main_arg1) :=
  (W4_of_ne m ρ c main_arg1 (by decide)).trans (W3_arg1 m ρ c)
theorem W4_arg2 : W4 m ρ c (Proc.devRef .tc main_arg2) = m ((c.tc : Thread nD τ).loc main_arg2) :=
  (W4_of_ne m ρ c main_arg2 (by decide)).trans (W3_arg2 m ρ c)
theorem W4_arg6 : W4 m ρ c (Proc.devRef .tc main_arg6) = m ((c.tc : Thread nD τ).loc main_arg6) :=
  (W4_of_ne m ρ c main_arg6 (by decide)).trans (W3_arg6 m ρ c)
theorem W4_arg7 : W4 m ρ c (Proc.devRef .tc main_arg7) = m ((c.tc : Thread nD τ).loc main_arg7) :=
  (W4_of_ne m ρ c main_arg7 (by decide)).trans (W3_arg7 m ρ c)
theorem W4_arg8 : W4 m ρ c (Proc.devRef .tc main_arg8) = m ((c.tc : Thread nD τ).loc main_arg8) :=
  (W4_of_ne m ρ c main_arg8 (by decide)).trans (W3_arg8 m ρ c)
theorem W4_arg9 : W4 m ρ c (Proc.devRef .tc main_arg9) = m ((c.tc : Thread nD τ).loc main_arg9) :=
  (W4_of_ne m ρ c main_arg9 (by decide)).trans (W3_arg9 m ρ c)
theorem W4_v14 : W4 m ρ c (Proc.devRef .tc main_v14) = ndK m c :=
  ((W4_arr m ρ c 1).trans (((dat1 (V3 m ρ) c).arrAt_in 1 rfl _).trans (A_eq1 (V3 m ρ) c 1))).trans (W3_v14 m ρ c)
theorem W4_v10 : W4 m ρ c (Proc.devRef .tc main_v10) = nsK m c :=
  ((W4_arr m ρ c 2).trans (((dat1 (V3 m ρ) c).arrAt_in 2 rfl _).trans (A_eq1 (V3 m ρ) c 2))).trans (W3_v10 m ρ c)
theorem W4_v27 : W4 m ρ c (Proc.devRef .tc main_v27) = (dat1 (V3 m ρ) c).arrAt 5 cfg1.N := W4_arr m ρ c 5

/-! ### At the third region's entry -/

theorem W5_arg1 : W5 m ρ c (Proc.devRef .tc main_arg1) = m ((c.tc : Thread nD τ).loc main_arg1) :=
  (show StableHlo.after hostOps2 (W4 m ρ c) (Proc.devRef .tc main_arg1) = W4 m ρ c (Proc.devRef .tc main_arg1) by unwritten hostOps2).trans (W4_arg1 m ρ c)
theorem W5_arg2 : W5 m ρ c (Proc.devRef .tc main_arg2) = m ((c.tc : Thread nD τ).loc main_arg2) :=
  (show StableHlo.after hostOps2 (W4 m ρ c) (Proc.devRef .tc main_arg2) = W4 m ρ c (Proc.devRef .tc main_arg2) by unwritten hostOps2).trans (W4_arg2 m ρ c)
theorem W5_arg6 : W5 m ρ c (Proc.devRef .tc main_arg6) = m ((c.tc : Thread nD τ).loc main_arg6) :=
  (show StableHlo.after hostOps2 (W4 m ρ c) (Proc.devRef .tc main_arg6) = W4 m ρ c (Proc.devRef .tc main_arg6) by unwritten hostOps2).trans (W4_arg6 m ρ c)
theorem W5_arg7 : W5 m ρ c (Proc.devRef .tc main_arg7) = m ((c.tc : Thread nD τ).loc main_arg7) :=
  (show StableHlo.after hostOps2 (W4 m ρ c) (Proc.devRef .tc main_arg7) = W4 m ρ c (Proc.devRef .tc main_arg7) by unwritten hostOps2).trans (W4_arg7 m ρ c)
theorem W5_arg8 : W5 m ρ c (Proc.devRef .tc main_arg8) = m ((c.tc : Thread nD τ).loc main_arg8) :=
  (show StableHlo.after hostOps2 (W4 m ρ c) (Proc.devRef .tc main_arg8) = W4 m ρ c (Proc.devRef .tc main_arg8) by unwritten hostOps2).trans (W4_arg8 m ρ c)
theorem W5_arg9 : W5 m ρ c (Proc.devRef .tc main_arg9) = m ((c.tc : Thread nD τ).loc main_arg9) :=
  (show StableHlo.after hostOps2 (W4 m ρ c) (Proc.devRef .tc main_arg9) = W4 m ρ c (Proc.devRef .tc main_arg9) by unwritten hostOps2).trans (W4_arg9 m ρ c)
theorem W5_v10 : W5 m ρ c (Proc.devRef .tc main_v10) = nsK m c :=
  (show StableHlo.after hostOps2 (W4 m ρ c) (Proc.devRef .tc main_v10) = W4 m ρ c (Proc.devRef .tc main_v10) by unwritten hostOps2).trans (W4_v10 m ρ c)
theorem W5_v14 : W5 m ρ c (Proc.devRef .tc main_v14) = ndK m c :=
  (show StableHlo.after hostOps2 (W4 m ρ c) (Proc.devRef .tc main_v14) = W4 m ρ c (Proc.devRef .tc main_v14) by unwritten hostOps2).trans (W4_v14 m ρ c)
/-- The third host stretch leaves in `%38` the messages over the second region's output. -/
theorem W5_v38 : W5 m ρ c (Proc.devRef .tc main_v38) = msgK m ((dat1 (V3 m ρ) c).arrAt 5 cfg1.N) c :=
  (host2_v38 (W4 m ρ c)).trans (by
    rw [W4_arg1 m ρ c, W4_arg2 m ρ c, W4_v27 m ρ c]; first | done | rfl)

/-! ### At the third region's exit -/

theorem W6_arg1 : W6 m ρ c (Proc.devRef .tc main_arg1) = m ((c.tc : Thread nD τ).loc main_arg1) :=
  (W6_of_ne m ρ c main_arg1 (by decide)).trans (W5_arg1 m ρ c)
theorem W6_arg2 : W6 m ρ c (Proc.devRef .tc main_arg2) = m ((c.tc : Thread nD τ).loc main_arg2) :=
  (W6_of_ne m ρ c main_arg2 (by decide)).trans (W5_arg2 m ρ c)
theorem W6_arg8 : W6 m ρ c (Proc.devRef .tc main_arg8) = m ((c.tc : Thread nD τ).loc main_arg8) :=
  (W6_of_ne m ρ c main_arg8 (by decide)).trans (W5_arg8 m ρ c)
theorem W6_arg9 : W6 m ρ c (Proc.devRef .tc main_arg9) = m ((c.tc : Thread nD τ).loc main_arg9) :=
  (W6_of_ne m ρ c main_arg9 (by decide)).trans (W5_arg9 m ρ c)
theorem W6_v14 : W6 m ρ c (Proc.devRef .tc main_v14) = ndK m c :=
  ((W6_arr m ρ c 1).trans (((dat2 (V5 m ρ) c).arrAt_in 1 rfl _).trans (A_eq2 (V5 m ρ) c 1))).trans (W5_v14 m ρ c)
theorem W6_v39 : W6 m ρ c (Proc.devRef .tc main_v39) = (dat2 (V5 m ρ) c).arrAt 5 cfg2.N := W6_arr m ρ c 5

/-! ### At the fourth region's entry and exit -/

theorem W7_arg8 : W7 m ρ c (Proc.devRef .tc main_arg8) = m ((c.tc : Thread nD τ).loc main_arg8) :=
  (show StableHlo.after hostOps3 (W6 m ρ c) (Proc.devRef .tc main_arg8) = W6 m ρ c (Proc.devRef .tc main_arg8) by unwritten hostOps3).trans (W6_arg8 m ρ c)
theorem W7_arg9 : W7 m ρ c (Proc.devRef .tc main_arg9) = m ((c.tc : Thread nD τ).loc main_arg9) :=
  (show StableHlo.after hostOps3 (W6 m ρ c) (Proc.devRef .tc main_arg9) = W6 m ρ c (Proc.devRef .tc main_arg9) by unwritten hostOps3).trans (W6_arg9 m ρ c)
theorem W7_v14 : W7 m ρ c (Proc.devRef .tc main_v14) = ndK m c :=
  (show StableHlo.after hostOps3 (W6 m ρ c) (Proc.devRef .tc main_v14) = W6 m ρ c (Proc.devRef .tc main_v14) by unwritten hostOps3).trans (W6_v14 m ρ c)
/-- The fourth host stretch leaves in `%50` the messages over the third region's output. -/
theorem W7_v50 : W7 m ρ c (Proc.devRef .tc main_v50) = msgK m ((dat2 (V5 m ρ) c).arrAt 5 cfg2.N) c :=
  (host3_v50 (W6 m ρ c)).trans (by
    rw [W6_arg1 m ρ c, W6_arg2 m ρ c, W6_v39 m ρ c]; first | done | rfl)
theorem W8_v51 : W8 m ρ c (Proc.devRef .tc main_v51) = (dat3 (V7 m ρ) c).arrAt 4 cfg3.N := W8_arr m ρ c 4

end Carried

/-! ## What each region finds in the arrays it reads, and what the program returns -/

section Entry
variable (c : Dev nD)

/-! ### Region 0 reads `%arg0`, `%arg3` and `%10` -/
theorem V1_arg0 : V1 m ρ c main_arg0 = m ((c.tc : Thread nD τ).loc main_arg0) := W1_arg0 m ρ c
theorem V1_arg3 : V1 m ρ c main_arg3 = m ((c.tc : Thread nD τ).loc main_arg3) := W1_arg3 m ρ c
theorem V1_v10 : V1 m ρ c main_v10 = nsK m c := W1_v10 m ρ c

/-! ### Region 1 reads `%26`, `%14`, `%10`, `%arg4` and `%arg5` -/
theorem V3_v26 : V3 m ρ c main_v26 = msgK m ((dat0 (V1 m ρ) c).arrAt 3 cfg0.N) c := W3_v26 m ρ c
theorem V3_v14 : V3 m ρ c main_v14 = ndK m c := W3_v14 m ρ c
theorem V3_v10 : V3 m ρ c main_v10 = nsK m c := W3_v10 m ρ c
theorem V3_arg4 : V3 m ρ c main_arg4 = m ((c.tc : Thread nD τ).loc main_arg4) := W3_arg4 m ρ c
theorem V3_arg5 : V3 m ρ c main_arg5 = m ((c.tc : Thread nD τ).loc main_arg5) := W3_arg5 m ρ c

/-! ### Region 2 reads `%38`, `%14`, `%10`, `%arg6` and `%arg7` -/
theorem V5_v38 : V5 m ρ c main_v38 = msgK m ((dat1 (V3 m ρ) c).arrAt 5 cfg1.N) c := W5_v38 m ρ c
theorem V5_v14 : V5 m ρ c main_v14 = ndK m c := W5_v14 m ρ c
theorem V5_v10 : V5 m ρ c main_v10 = nsK m c := W5_v10 m ρ c
theorem V5_arg6 : V5 m ρ c main_arg6 = m ((c.tc : Thread nD τ).loc main_arg6) := W5_arg6 m ρ c
theorem V5_arg7 : V5 m ρ c main_arg7 = m ((c.tc : Thread nD τ).loc main_arg7) := W5_arg7 m ρ c

/-! ### Region 3 reads `%50`, `%14`, `%arg8` and `%arg9` -/
theorem V7_v50 : V7 m ρ c main_v50 = msgK m ((dat2 (V5 m ρ) c).arrAt 5 cfg2.N) c := W7_v50 m ρ c
theorem V7_v14 : V7 m ρ c main_v14 = ndK m c := W7_v14 m ρ c
theorem V7_arg8 : V7 m ρ c main_arg8 = m ((c.tc : Thread nD τ).loc main_arg8) := W7_arg8 m ρ c
theorem V7_arg9 : V7 m ρ c main_arg9 = m ((c.tc : Thread nD τ).loc main_arg9) := W7_arg9 m ρ c

/-- The result buffer `%52` ends at the last region's output array, its rows regrouped as 256 × 512. -/
theorem W9_result : W9 m ρ c (Proc.devRef .tc main_v52)
    = shapeCast S256x512x128 ((dat3 (V7 m ρ) c).arrAt 4 cfg3.N) shapeCasts_S131072x128_S256x512x128 :=
  (host4_v52 (W8 m ρ c)).trans (by rw [W8_v51 m ρ c])

end Entry

/-! ## The run, with the result buffer -/

-- the launch theorem's implicit arguments are found by unifying its conclusion with this one, which takes unfolding
-- plain definitions in a metavariable's type
set_option backward.isDefEq.respectTransparency.types false in
/-- From any memory with zero counters every weakly fair execution of the program on the TensorCores terminates,
    nothing faulting, and every final state has the result buffer at the last boundary's contents and the argument
    arrays as launched: the launch over the program's segments, the last thread state read against the final state,
    the result buffer as it stands there and each argument walked back to the launch memory. -/
theorem run_result : θ_run defs (onTc (τ := τ) (main (F := F))) ⟨m, fun _ => 0, ρ⟩ (fun r => ∀ c : Dev nD,
      r.2.mem ((c.tc : Thread nD τ).loc main_v52) = W9 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v52 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Run

end
-- ==== Proof.Products.lean ====
/-
  A matrix product read at an entry. With exact arithmetic a `tpu.matmul` into a zero accumulator and the host's
  `dot_general` are the same thing: entry (p, q) is Σ_k l(p, k) · r(k, q) over the one contracted axis. Stated for the
  two block products of the kernel bodies ([4096, 74]·[74, 128] and [4096, 128]·[128, 128]) and the two whole-array
  products of the reference ([131072, 74]·[74, 128] and [131072, 128]·[128, 128]).
-/
import proofs.«125973_j56427280335071_2_alg».proof.Proof.Gen.KernelIdeal
import proofs.«125973_j56427280335071_2_alg».proof.Proof.Gen.ReferenceIdeal
import Idealize.ShloMosaic.Lib.ValueIdx
import Idealize.ShloMosaic.PureOps.Ideal.Laws

noncomputable section

namespace Cert.KernelIdeal.Products

open Idealize.ShloMosaic Idealize.ShloMosaic.ValueIdx Cert.KernelIdeal

/-! ### The contraction of a [4096, 74] by a [74, 128] array -/

theorem lhs_b74_0 (i : S4096x128.Idx) (q : dot_S4096x74_S74x128_S4096x128_1_0_0_1_n_n.contr.Idx) : (dot_S4096x74_S74x128_S4096x128_1_0_0_1_n_n.lhsIdx i q 0).val = (i 0).val := by
  unfold DotDims.lhsIdx
  rw [dif_neg (show ¬(0 : Fin S4096x74.rank) ∈ dot_S4096x74_S74x128_S4096x128_1_0_0_1_n_n.lhsBatch by decide), dif_pos (show (0 : Fin S4096x74.rank) ∈ dot_S4096x74_S74x128_S4096x128_1_0_0_1_n_n.lhsNonContracting by decide)]
  rfl
theorem lhs_b74_1 (i : S4096x128.Idx) (q : dot_S4096x74_S74x128_S4096x128_1_0_0_1_n_n.contr.Idx) : (dot_S4096x74_S74x128_S4096x128_1_0_0_1_n_n.lhsIdx i q 1).val = (q ⟨0, by decide⟩).val :=
  dot_S4096x74_S74x128_S4096x128_1_0_0_1_n_n.lhsIdx_val_of_single rfl i q
theorem rhs_b74_0 (i : S4096x128.Idx) (q : dot_S4096x74_S74x128_S4096x128_1_0_0_1_n_n.contr.Idx) : (dot_S4096x74_S74x128_S4096x128_1_0_0_1_n_n.rhsIdx i q 0).val = (q ⟨0, by decide⟩).val :=
  dot_S4096x74_S74x128_S4096x128_1_0_0_1_n_n.rhsIdx_val_of_single rfl i q
theorem rhs_b74_1 (i : S4096x128.Idx) (q : dot_S4096x74_S74x128_S4096x128_1_0_0_1_n_n.contr.Idx) : (dot_S4096x74_S74x128_S4096x128_1_0_0_1_n_n.rhsIdx i q 1).val = (i 1).val := by
  unfold DotDims.rhsIdx
  rw [dif_neg (show ¬(1 : Fin S74x128.rank) ∈ dot_S4096x74_S74x128_S4096x128_1_0_0_1_n_n.rhsBatch by decide), dif_pos (show (1 : Fin S74x128.rank) ∈ dot_S4096x74_S74x128_S4096x128_1_0_0_1_n_n.rhsNonContracting by decide)]
  rfl

/-- The record's contraction index is one axis of extent 74: entry (p, q) of the product pairs row p of the left
    operand with column q of the right one. -/
theorem sum_b74 {φ₁ φ₂ : FTy} (l : FVec Ideal S4096x74 φ₁) (r : FVec Ideal S74x128 φ₂) (p : Fin 4096) (q : Fin 128) :
    ∑ k : dot_S4096x74_S74x128_S4096x128_1_0_0_1_n_n.contr.Idx, l (dot_S4096x74_S74x128_S4096x128_1_0_0_1_n_n.lhsIdx (ix2 p q) k) * r (dot_S4096x74_S74x128_S4096x128_1_0_0_1_n_n.rhsIdx (ix2 p q) k) = ∑ k : Fin 74, l (ix2 p k) * r (ix2 k q) := by
  rw [← Equiv.sum_comp (ValueIdx.contrEquiv1 dot_S4096x74_S74x128_S4096x128_1_0_0_1_n_n 74 rfl rfl).symm]
  refine Finset.sum_congr rfl fun k _ => ?_
  have hk := ValueIdx.contrEquiv1_symm_val dot_S4096x74_S74x128_S4096x128_1_0_0_1_n_n 74 rfl rfl k
  have el : dot_S4096x74_S74x128_S4096x128_1_0_0_1_n_n.lhsIdx (ix2 p q) ((ValueIdx.contrEquiv1 dot_S4096x74_S74x128_S4096x128_1_0_0_1_n_n 74 rfl rfl).symm k) = ix2 p k := funext fun a => Fin.ext (by
    match a with
    | ⟨0, _⟩ => exact lhs_b74_0 _ _
    | ⟨1, _⟩ => exact (lhs_b74_1 _ _).trans hk)
  have er : dot_S4096x74_S74x128_S4096x128_1_0_0_1_n_n.rhsIdx (ix2 p q) ((ValueIdx.contrEquiv1 dot_S4096x74_S74x128_S4096x128_1_0_0_1_n_n 74 rfl rfl).symm k) = ix2 k q := funext fun a => Fin.ext (by
    match a with
    | ⟨0, _⟩ => exact (rhs_b74_0 _ _).trans hk
    | ⟨1, _⟩ => exact rhs_b74_1 _ _)
  rw [el, er]

theorem matmul_b74 {φ₁ φ₂ : FTy} (l : FVec Ideal S4096x74 φ₁) (r : FVec Ideal S74x128 φ₂) (p : Fin 4096) (q : Fin 128) :
    matmul dot_S4096x74_S74x128_S4096x128_1_0_0_1_n_n none l r (constant (F := Ideal) S4096x128 .f32 0x00000000#32) (ix2 p q) = ∑ k : Fin 74, l (ix2 p k) * r (ix2 k q) := by
  simp only [matmul]
  rw [Ideal.matmul_constant_zero_apply]
  exact sum_b74 l r p q

/-! ### The contraction of a [4096, 128] by a [128, 128] array -/

theorem lhs_b128_0 (i : S4096x128.Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_b128_1 (i : S4096x128.Idx) (q : dot_S4096x128_S128x128_S4096x128_1_0_0_1_n_n.contr.Idx) : (dot_S4096x128_S128x128_S4096x128_1_0_0_1_n_n.lhsIdx i q 1).val = (q ⟨0, by decide⟩).val :=
  dot_S4096x128_S128x128_S4096x128_1_0_0_1_n_n.lhsIdx_val_of_single rfl i q
theorem rhs_b128_0 (i : S4096x128.Idx) (q : dot_S4096x128_S128x128_S4096x128_1_0_0_1_n_n.contr.Idx) : (dot_S4096x128_S128x128_S4096x128_1_0_0_1_n_n.rhsIdx i q 0).val = (q ⟨0, by decide⟩).val :=
  dot_S4096x128_S128x128_S4096x128_1_0_0_1_n_n.rhsIdx_val_of_single rfl i q
theorem rhs_b128_1 (i : S4096x128.Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The record's contraction index is one axis of extent 128: entry (p, q) of the product pairs row p of the left
    operand with column q of the right one. -/
theorem sum_b128 {φ₁ φ₂ : FTy} (l : FVec Ideal S4096x128 φ₁) (r : FVec Ideal S128x128 φ₂) (p : Fin 4096) (q : Fin 128) :
    ∑ k : dot_S4096x128_S128x128_S4096x128_1_0_0_1_n_n.contr.Idx, l (dot_S4096x128_S128x128_S4096x128_1_0_0_1_n_n.lhsIdx (ix2 p q) k) * r (dot_S4096x128_S128x128_S4096x128_1_0_0_1_n_n.rhsIdx (ix2 p q) k) = ∑ k : Fin 128, l (ix2 p k) * r (ix2 k q) := by
  rw [← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 p q) ((ValueIdx.contrEquiv1 dot_S4096x128_S128x128_S4096x128_1_0_0_1_n_n 128 rfl rfl).symm k) = ix2 p k := funext fun a => Fin.ext (by
    match a with
    | ⟨0, _⟩ => exact lhs_b128_0 _ _
    | ⟨1, _⟩ => exact (lhs_b128_1 _ _).trans hk)
  have er : dot_S4096x128_S128x128_S4096x128_1_0_0_1_n_n.rhsIdx (ix2 p q) ((ValueIdx.contrEquiv1 dot_S4096x128_S128x128_S4096x128_1_0_0_1_n_n 128 rfl rfl).symm k) = ix2 k q := funext fun a => Fin.ext (by
    match a with
    | ⟨0, _⟩ => exact (rhs_b128_0 _ _).trans hk
    | ⟨1, _⟩ => exact rhs_b128_1 _ _)
  rw [el, er]

theorem matmul_b128 {φ₁ φ₂ : FTy} (l : FVec Ideal S4096x128 φ₁) (r : FVec Ideal S128x128 φ₂) (p : Fin 4096) (q : Fin 128) :
    matmul dot_S4096x128_S128x128_S4096x128_1_0_0_1_n_n none l r (constant (F := Ideal) S4096x128 .f32 0x00000000#32) (ix2 p q) = ∑ k : Fin 128, l (ix2 p k) * r (ix2 k q) := by
  simp only [matmul]
  rw [Ideal.matmul_constant_zero_apply]
  exact sum_b128 l r p q

end Cert.KernelIdeal.Products

namespace Cert.ReferenceIdeal.Products

open Idealize.ShloMosaic Idealize.ShloMosaic.ValueIdx Cert.ReferenceIdeal

/-! ### The contraction of a [131072, 74] by a [74, 128] array -/

theorem lhs_w74_0 (i : S131072x128.Idx) (q : dot_S131072x74_S74x128_S131072x128_1_0_0_1_n_n.contr.Idx) : (dot_S131072x74_S74x128_S131072x128_1_0_0_1_n_n.lhsIdx i q 0).val = (i 0).val := by
  unfold DotDims.lhsIdx
  rw [dif_neg (show ¬(0 : Fin S131072x74.rank) ∈ dot_S131072x74_S74x128_S131072x128_1_0_0_1_n_n.lhsBatch by decide), dif_pos (show (0 : Fin S131072x74.rank) ∈ dot_S131072x74_S74x128_S131072x128_1_0_0_1_n_n.lhsNonContracting by decide)]
  rfl
theorem lhs_w74_1 (i : S131072x128.Idx) (q : dot_S131072x74_S74x128_S131072x128_1_0_0_1_n_n.contr.Idx) : (dot_S131072x74_S74x128_S131072x128_1_0_0_1_n_n.lhsIdx i q 1).val = (q ⟨0, by decide⟩).val :=
  dot_S131072x74_S74x128_S131072x128_1_0_0_1_n_n.lhsIdx_val_of_single rfl i q
theorem rhs_w74_0 (i : S131072x128.Idx) (q : dot_S131072x74_S74x128_S131072x128_1_0_0_1_n_n.contr.Idx) : (dot_S131072x74_S74x128_S131072x128_1_0_0_1_n_n.rhsIdx i q 0).val = (q ⟨0, by decide⟩).val :=
  dot_S131072x74_S74x128_S131072x128_1_0_0_1_n_n.rhsIdx_val_of_single rfl i q
theorem rhs_w74_1 (i : S131072x128.Idx) (q : dot_S131072x74_S74x128_S131072x128_1_0_0_1_n_n.contr.Idx) : (dot_S131072x74_S74x128_S131072x128_1_0_0_1_n_n.rhsIdx i q 1).val = (i 1).val := by
  unfold DotDims.rhsIdx
  rw [dif_neg (show ¬(1 : Fin S74x128.rank) ∈ dot_S131072x74_S74x128_S131072x128_1_0_0_1_n_n.rhsBatch by decide), dif_pos (show (1 : Fin S74x128.rank) ∈ dot_S131072x74_S74x128_S131072x128_1_0_0_1_n_n.rhsNonContracting by decide)]
  rfl

/-- The record's contraction index is one axis of extent 74: entry (p, q) of the product pairs row p of the left
    operand with column q of the right one. -/
theorem sum_w74 {φ₁ φ₂ : FTy} (l : FVec Ideal S131072x74 φ₁) (r : FVec Ideal S74x128 φ₂) (p : Fin 131072) (q : Fin 128) :
    ∑ k : dot_S131072x74_S74x128_S131072x128_1_0_0_1_n_n.contr.Idx, l (dot_S131072x74_S74x128_S131072x128_1_0_0_1_n_n.lhsIdx (ix2 p q) k) * r (dot_S131072x74_S74x128_S131072x128_1_0_0_1_n_n.rhsIdx (ix2 p q) k) = ∑ k : Fin 74, l (ix2 p k) * r (ix2 k q) := by
  rw [← Equiv.sum_comp (ValueIdx.contrEquiv1 dot_S131072x74_S74x128_S131072x128_1_0_0_1_n_n 74 rfl rfl).symm]
  refine Finset.sum_congr rfl fun k _ => ?_
  have hk := ValueIdx.contrEquiv1_symm_val dot_S131072x74_S74x128_S131072x128_1_0_0_1_n_n 74 rfl rfl k
  have el : dot_S131072x74_S74x128_S131072x128_1_0_0_1_n_n.lhsIdx (ix2 p q) ((ValueIdx.contrEquiv1 dot_S131072x74_S74x128_S131072x128_1_0_0_1_n_n 74 rfl rfl).symm k) = ix2 p k := funext fun a => Fin.ext (by
    match a with
    | ⟨0, _⟩ => exact lhs_w74_0 _ _
    | ⟨1, _⟩ => exact (lhs_w74_1 _ _).trans hk)
  have er : dot_S131072x74_S74x128_S131072x128_1_0_0_1_n_n.rhsIdx (ix2 p q) ((ValueIdx.contrEquiv1 dot_S131072x74_S74x128_S131072x128_1_0_0_1_n_n 74 rfl rfl).symm k) = ix2 k q := funext fun a => Fin.ext (by
    match a with
    | ⟨0, _⟩ => exact (rhs_w74_0 _ _).trans hk
    | ⟨1, _⟩ => exact rhs_w74_1 _ _)
  rw [el, er]

theorem dot_w74 {φ₁ φ₂ : FTy} (l : FVec Ideal S131072x74 φ₁) (r : FVec Ideal S74x128 φ₂) (p : Fin 131072) (q : Fin 128) :
    Host.dotGeneral (F := Ideal) dot_S131072x74_S74x128_S131072x128_1_0_0_1_n_n none l r (ix2 p q) = ∑ k : Fin 74, l (ix2 p k) * r (ix2 k q) := by
  simp only [Host.dotGeneral]
  rw [Ideal.dotGeneral_apply]
  exact sum_w74 l r p q

/-! ### The contraction of a [131072, 128] by a [128, 128] array -/

theorem lhs_w128_0 (i : S131072x128.Idx) (q : dot_S131072x128_S128x128_S131072x128_1_0_0_1_n_n.contr.Idx) : (dot_S131072x128_S128x128_S131072x128_1_0_0_1_n_n.lhsIdx i q 0).val = (i 0).val := by
  unfold DotDims.lhsIdx
  rw [dif_neg (show ¬(0 : Fin S131072x128.rank) ∈ dot_S131072x128_S128x128_S131072x128_1_0_0_1_n_n.lhsBatch by decide), dif_pos (show (0 : Fin S131072x128.rank) ∈ dot_S131072x128_S128x128_S131072x128_1_0_0_1_n_n.lhsNonContracting by decide)]
  rfl
theorem lhs_w128_1 (i : S131072x128.Idx) (q : dot_S131072x128_S128x128_S131072x128_1_0_0_1_n_n.contr.Idx) : (dot_S131072x128_S128x128_S131072x128_1_0_0_1_n_n.lhsIdx i q 1).val = (q ⟨0, by decide⟩).val :=
  dot_S131072x128_S128x128_S131072x128_1_0_0_1_n_n.lhsIdx_val_of_single rfl i q
theorem rhs_w128_0 (i : S131072x128.Idx) (q : dot_S131072x128_S128x128_S131072x128_1_0_0_1_n_n.contr.Idx) : (dot_S131072x128_S128x128_S131072x128_1_0_0_1_n_n.rhsIdx i q 0).val = (q ⟨0, by decide⟩).val :=
  dot_S131072x128_S128x128_S131072x128_1_0_0_1_n_n.rhsIdx_val_of_single rfl i q
theorem rhs_w128_1 (i : S131072x128.Idx) (q : dot_S131072x128_S128x128_S131072x128_1_0_0_1_n_n.contr.Idx) : (dot_S131072x128_S128x128_S131072x128_1_0_0_1_n_n.rhsIdx i q 1).val = (i 1).val := by
  unfold DotDims.rhsIdx
  rw [dif_neg (show ¬(1 : Fin S128x128.rank) ∈ dot_S131072x128_S128x128_S131072x128_1_0_0_1_n_n.rhsBatch by decide), dif_pos (show (1 : Fin S128x128.rank) ∈ dot_S131072x128_S128x128_S131072x128_1_0_0_1_n_n.rhsNonContracting by decide)]
  rfl

/-- The record's contraction index is one axis of extent 128: entry (p, q) of the product pairs row p of the left
    operand with column q of the right one. -/
theorem sum_w128 {φ₁ φ₂ : FTy} (l : FVec Ideal S131072x128 φ₁) (r : FVec Ideal S128x128 φ₂) (p : Fin 131072) (q : Fin 128) :
    ∑ k : dot_S131072x128_S128x128_S131072x128_1_0_0_1_n_n.contr.Idx, l (dot_S131072x128_S128x128_S131072x128_1_0_0_1_n_n.lhsIdx (ix2 p q) k) * r (dot_S131072x128_S128x128_S131072x128_1_0_0_1_n_n.rhsIdx (ix2 p q) k) = ∑ k : Fin 128, l (ix2 p k) * r (ix2 k q) := by
  rw [← Equiv.sum_comp (ValueIdx.contrEquiv1 dot_S131072x128_S128x128_S131072x128_1_0_0_1_n_n 128 rfl rfl).symm]
  refine Finset.sum_congr rfl fun k _ => ?_
  have hk := ValueIdx.contrEquiv1_symm_val dot_S131072x128_S128x128_S131072x128_1_0_0_1_n_n 128 rfl rfl k
  have el : dot_S131072x128_S128x128_S131072x128_1_0_0_1_n_n.lhsIdx (ix2 p q) ((ValueIdx.contrEquiv1 dot_S131072x128_S128x128_S131072x128_1_0_0_1_n_n 128 rfl rfl).symm k) = ix2 p k := funext fun a => Fin.ext (by
    match a with
    | ⟨0, _⟩ => exact lhs_w128_0 _ _
    | ⟨1, _⟩ => exact (lhs_w128_1 _ _).trans hk)
  have er : dot_S131072x128_S128x128_S131072x128_1_0_0_1_n_n.rhsIdx (ix2 p q) ((ValueIdx.contrEquiv1 dot_S131072x128_S128x128_S131072x128_1_0_0_1_n_n 128 rfl rfl).symm k) = ix2 k q := funext fun a => Fin.ext (by
    match a with
    | ⟨0, _⟩ => exact (rhs_w128_0 _ _).trans hk
    | ⟨1, _⟩ => exact rhs_w128_1 _ _)
  rw [el, er]

theorem dot_w128 {φ₁ φ₂ : FTy} (l : FVec Ideal S131072x128 φ₁) (r : FVec Ideal S128x128 φ₂) (p : Fin 131072) (q : Fin 128) :
    Host.dotGeneral (F := Ideal) dot_S131072x128_S128x128_S131072x128_1_0_0_1_n_n none l r (ix2 p q) = ∑ k : Fin 128, l (ix2 p k) * r (ix2 k q) := by
  simp only [Host.dotGeneral]
  rw [Ideal.dotGeneral_apply]
  exact sum_w128 l r p q

end Cert.ReferenceIdeal.Products

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.Bodies.lean ====
/-
  What each kernel body stores, read at one entry (r, q) of its [4096, 128] block, with exact arithmetic (a change of
  float format is the identity, a matrix product into a zero accumulator is the plain sum):
    the embedding body   (Σ_k x(r, k) · w(k, q)) · ns(r)
    a layer body         max (Σ_k (agg(r, k) · nd(r)) · w(k, q) + b(q)) 0, times ns(r) when the layer feeds another
  where x, agg are the block's rows, w and b the whole weights, and nd, ns the block's column of degree norms.
-/
import proofs.«125973_j56427280335071_2_alg».proof.Proof.Gen.KernelIdeal.Skeleton
import proofs.«125973_j56427280335071_2_alg».proof.Proof.Products
import proofs.«125973_j56427280335071_2_alg».proof.Proof.LibKeepdims
import Idealize.ShloMosaic.Lib.ValueLayout
import Idealize.ShloMosaic.Lib.Pipeline.Value

noncomputable section

namespace Cert.KernelIdeal.Bodies

open Idealize.ShloMosaic Idealize.ShloMosaic.ValueIdx Cert.KernelIdeal Cert.KernelIdeal.Gen Cert.KernelIdeal.Products

/-- The pre-activation of a layer at (r, q): the block's row r, scaled by its in-degree norm, against column q of the
    weights, plus the bias. -/
theorem preact_at (agg : FVec Ideal S4096x128 .f32) (nd : FVec Ideal S4096x1 .f32) (w : FVec Ideal S128x128 .f32)
    (b : FVec Ideal S128 .f32) (r : Fin 4096) (q : Fin 128) :
    addf (matmul dot_S4096x128_S128x128_S4096x128_1_0_0_1_n_n none
        (truncf .bf16 (mulf (shapeCast S4096x128 agg shapeCasts_S4096x128_S4096x128)
          (broadcastTo S4096x128 (shapeCast S4096x1 nd shapeCasts_S4096x1_S4096x1) broadcasts_S4096x1_S4096x128)) bitsLt_bf16_f32)
        (truncf .bf16 w bitsLt_bf16_f32) (constant (F := Ideal) S4096x128 .f32 0x00000000#32))
      (broadcastTo S4096x128 (shapeCast S1x128 b shapeCasts_S128_S1x128) broadcasts_S1x128_S4096x128) (ix2 r q)
    = (∑ k : Fin 128, (agg (ix2 r k) * nd (ix2 r (0 : Fin 1))) * w (ix2 k q)) + b (ix1 q) := by
  rw [addf_apply, matmul_b128, broadcastTo_1b_ab_apply, shapeCast_a_1a_apply]
  refine congrArg (· + b (ix1 q)) (Finset.sum_congr rfl fun k _ => ?_)
  rw [truncf_apply, truncf_apply, mulf_apply, broadcastTo_a1_ab_apply, shapeCast_self, shapeCast_self]

/-- The embedding body's store at (r, q). -/
theorem embed_body_at (x : Vec Ideal S4096x74 .f32) (w : Vec Ideal S74x128 .f32) (ns : Vec Ideal S4096x1 .f32)
    (r : Fin 4096) (q : Fin 128) :
    k0_pay1 (F := Ideal) x w ns (ix2 r q) = (∑ k : Fin 74, x (ix2 r k) * w (ix2 k q)) * ns (ix2 r (0 : Fin 1)) := by
  unfold k0_pay1
  rw [truncf_apply, mulf_apply, matmul_b74, broadcastTo_a1_ab_apply, shapeCast_self]
  rfl

/-- A layer body that feeds another layer: its store at (r, q). -/
theorem table_body_at (agg : Vec Ideal S4096x128 .f32) (nd : Vec Ideal S4096x1 .f32) (w : Vec Ideal S128x128 .f32)
    (b : Vec Ideal S128 .f32) (ns : Vec Ideal S4096x1 .f32) (r : Fin 4096) (q : Fin 128) :
    k1_pay1 (F := Ideal) agg nd w b ns (ix2 r q)
      = max ((∑ k : Fin 128, (agg (ix2 r k) * nd (ix2 r (0 : Fin 1))) * w (ix2 k q)) + b (ix1 q)) (Ideal.ofBits .f32 0x00000000#32)
        * ns (ix2 r (0 : Fin 1)) := by
  unfold k1_pay1
  rw [truncf_apply, mulf_apply, maximumf_apply, preact_at, broadcastTo_a1_ab_apply, shapeCast_self]
  rfl

/-- The second such layer runs the same body. -/
theorem table_body_at' (agg : Vec Ideal S4096x128 .f32) (nd : Vec Ideal S4096x1 .f32) (w : Vec Ideal S128x128 .f32)
    (b : Vec Ideal S128 .f32) (ns : Vec Ideal S4096x1 .f32) (r : Fin 4096) (q : Fin 128) :
    k2_pay1 (F := Ideal) agg nd w b ns (ix2 r q)
      = max ((∑ k : Fin 128, (agg (ix2 r k) * nd (ix2 r (0 : Fin 1))) * w (ix2 k q)) + b (ix1 q)) (Ideal.ofBits .f32 0x00000000#32)
        * ns (ix2 r (0 : Fin 1)) :=
  table_body_at agg nd w b ns r q

/-- The last layer's body: its store at (r, q). -/
theorem hidden_body_at (agg : Vec Ideal S4096x128 .f32) (nd : Vec Ideal S4096x1 .f32) (w : Vec Ideal S128x128 .f32)
    (b : Vec Ideal S128 .f32) (r : Fin 4096) (q : Fin 128) :
    k3_pay1 (F := Ideal) agg nd w b (ix2 r q)
      = max ((∑ k : Fin 128, (agg (ix2 r k) * nd (ix2 r (0 : Fin 1))) * w (ix2 k q)) + b (ix1 q)) (Ideal.ofBits .f32 0x00000000#32) := by
  unfold k3_pay1
  rw [maximumf_apply, preact_at]
  rfl

end Cert.KernelIdeal.Bodies

end
-- ==== Proof.SpecAt.lean ====
/-
  The dense stages of the network read at one entry (p, q) of a [131072, 128] array: the embedding is
  (Σ_k x(p, k) · w(k, q)) · ns(p), a layer's hidden state max (Σ_k (agg(p, k) · nd(p)) · w(k, q) + b(q)) 0, and its table
  for the next message pass that times ns(p). (A column [131072, 1] broadcast along the features reads its row; a bias
  [128] broadcast along the nodes reads its feature; the zero array reads zero.)
-/
import proofs.«125973_j56427280335071_2_alg».proof.Proof.Spec
import proofs.«125973_j56427280335071_2_alg».proof.Proof.Products
import Idealize.ShloMosaic.Lib.Pipeline.Value

noncomputable section

namespace Cert.Spec

open Idealize.ShloMosaic Idealize.ShloMosaic.ValueIdx Cert.ReferenceIdeal Cert.ReferenceIdeal.Products
open Cert.ReferenceIdeal.Facts₀ Cert.ReferenceIdeal.Facts

/-- A column of per-node values broadcast along the 128 features reads, at (p, q), the node's value. -/
theorem column_at (v : FVec Ideal S131072x1 .f32) (p : Fin 131072) (q : Fin 128) :
    broadcastInDim S131072x128 ![0, 1] bcast_S131072x1_S131072x128_0_1 v (ix2 p q) = v (ix2 p (0 : Fin 1)) :=
  broadcastInDim_apply _ bcast_S131072x1_S131072x128_0_1 v (ix2 p q) (ix2 p (0 : Fin 1)) (fun a => match a with
    | ⟨0, _⟩ => by show p.val = if (131072 : Nat) = 1 then 0 else p.val; rw [if_neg (by decide)]
    | ⟨1, _⟩ => by show 0 = if (1 : Nat) = 1 then 0 else q.val; rw [if_pos rfl])

/-- A bias vector broadcast along the nodes reads, at (p, q), the feature's bias. -/
theorem bias_at (b : FVec Ideal S128 .f32) (p : Fin 131072) (q : Fin 128) :
    broadcastInDim S131072x128 ![0, 1] bcast_S1x128_S131072x128_0_1 (broadcastInDim S1x128 ![1] bcast_S128_S1x128_1 b) (ix2 p q) = b (ix1 q) := by
  rw [broadcastInDim_apply _ bcast_S1x128_S131072x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 b (ix2 (0 : Fin 1) q) (ix1 q) (fun a => match a with
    | ⟨0, _⟩ => by show q.val = if (128 : Nat) = 1 then 0 else q.val; rw [if_neg (by decide)])

/-- The zero array reads the zero pattern's value everywhere. -/
theorem zeros_at (i : S131072x128.Idx) : zeros i = Ideal.ofBits .f32 0x00000000#32 := by
  unfold zeros
  exact broadcastInDim_apply _ bcast_S_S131072x128 _ i ix0 (fun a => a.elim0)

theorem embed_at (x : FVec Ideal S131072x74 .f32) (w : FVec Ideal S74x128 .f32) (ns : FVec Ideal S131072x1 .f32)
    (p : Fin 131072) (q : Fin 128) :
    embed x w ns (ix2 p q) = (∑ k : Fin 74, x (ix2 p k) * w (ix2 k q)) * ns (ix2 p (0 : Fin 1)) := by
  unfold embed
  rw [mulf_apply, dot_w74, column_at]

theorem hidden_at (agg : FVec Ideal S131072x128 .f32) (nd : FVec Ideal S131072x1 .f32) (w : FVec Ideal S128x128 .f32)
    (b : FVec Ideal S128 .f32) (p : Fin 131072) (q : Fin 128) :
    hidden agg nd w b (ix2 p q)
      = max ((∑ k : Fin 128, (agg (ix2 p k) * nd (ix2 p (0 : Fin 1))) * w (ix2 k q)) + b (ix1 q)) (Ideal.ofBits .f32 0x00000000#32) := by
  unfold hidden
  rw [maximumf_apply, addf_apply, dot_w128, bias_at, zeros_at]
  refine congrArg (fun s => max (s + b (ix1 q)) _) (Finset.sum_congr rfl fun k _ => ?_)
  rw [mulf_apply, column_at]

theorem table_at (agg : FVec Ideal S131072x128 .f32) (nd ns : FVec Ideal S131072x1 .f32) (w : FVec Ideal S128x128 .f32)
    (b : FVec Ideal S128 .f32) (p : Fin 131072) (q : Fin 128) :
    table agg nd ns w b (ix2 p q)
      = max ((∑ k : Fin 128, (agg (ix2 p k) * nd (ix2 p (0 : Fin 1))) * w (ix2 k q)) + b (ix1 q)) (Ideal.ofBits .f32 0x00000000#32)
        * ns (ix2 p (0 : Fin 1)) := by
  unfold table
  rw [mulf_apply, hidden_at, column_at]

end Cert.Spec

end
-- ==== Proof.Region0.lean ====
/-
  Region 0, the embedding, as one array. The grid has 32 points; point t fetches rows 4096·t … 4096·t + 4095 of x and of
  the out-degree column, the whole of W_init, and writes back rows 4096·t … of the output. What it writes back is the
  same rows of `embed x W_init ns`: entry (r, q) of the block is (Σ_k x(4096·t + r, k) · W(k, q)) · ns(4096·t + r).
  The 32 blocks tile the [131072, 128] output, so after the region the output array is `embed` of the three arrays as
  the region found them.
-/
import proofs.«125973_j56427280335071_2_alg».proof.Proof.FrameKernelIdealP
import proofs.«125973_j56427280335071_2_alg».proof.Proof.Bodies
import proofs.«125973_j56427280335071_2_alg».proof.Proof.SpecAt
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The printed index maps over the grid: the row windows sit at block row t, column block 0; the weights at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row r of point t's block is row 4096·t + r of the array. -/
def row (t : Fin cfg0.N) (r : Fin 4096) : Fin 131072 :=
  ⟨t.val * 4096 + r.val, by have h : t.val < grid0.N := t.isLt
                            have hN : grid0.N = 32 := N_0
                            have := r.isLt; omega⟩

theorem emb_x (t : Fin cfg0.N) (r : Fin 4096) (k : Fin 74) :
    ((cfg0.win 0).blk t).view.emb (ix2 r k) = ix2 (row t r) k := by
  obtain ⟨e0, e1, -⟩ := index_facts t
  funext a; apply Fin.ext
  match a with
  | ⟨0, _⟩ => show win0_0.index t (0 : Fin 2) * 4096 + 1 * r.val = t.val * 4096 + r.val; omega
  | ⟨1, _⟩ => show win0_0.index t (1 : Fin 2) * 74 + 1 * k.val = k.val; omega

theorem emb_w (t : Fin cfg0.N) (k : Fin 74) (q : Fin 128) :
    ((cfg0.win 1).blk t).view.emb (ix2 k q) = ix2 k q := by
  obtain ⟨-, -, e2, e3, -⟩ := index_facts t
  funext a; apply Fin.ext
  match a with
  | ⟨0, _⟩ => show win0_1.index t (0 : Fin 2) * 74 + 1 * k.val = k.val; omega
  | ⟨1, _⟩ => show win0_1.index t (1 : Fin 2) * 128 + 1 * q.val = q.val; omega

theorem emb_ns (t : Fin cfg0.N) (r : Fin 4096) :
    ((cfg0.win 2).blk t).view.emb (ix2 r (0 : Fin 1)) = ix2 (row t r) (0 : Fin 1) := by
  obtain ⟨-, -, -, -, e4, e5, -⟩ := index_facts t
  funext a; apply Fin.ext
  match a with
  | ⟨0, _⟩ => show win0_2.index t (0 : Fin 2) * 4096 + 1 * r.val = t.val * 4096 + r.val; omega
  | ⟨1, _⟩ => show win0_2.index t (1 : Fin 2) * 1 + 1 * 0 = 0; omega

theorem emb_out (t : Fin cfg0.N) (r : Fin 4096) (q : Fin 128) :
    ((cfg0.win 3).blk t).view.emb (ix2 r q) = ix2 (row t r) q := by
  obtain ⟨-, -, -, -, -, -, e6, e7⟩ := index_facts t
  funext a; apply Fin.ext
  match a with
  | ⟨0, _⟩ => show win0_3.index t (0 : Fin 2) * 4096 + 1 * r.val = t.val * 4096 + r.val; omega
  | ⟨1, _⟩ => show win0_3.index t (1 : Fin 2) * 128 + 1 * q.val = q.val; omega

/-- What point t writes back is block t of the embedding of the arrays as the region found them. -/
theorem flushed_eq (c : Dev nD) (t : Fin cfg0.N) :
    (dat0 V c).flushed 3 t
      = ((cfg0.win 3).blk t).view.read (Elt Ideal) (Cert.Spec.embed (V c main_arg0) (V c main_arg3) (V c main_v10)) := by
  show (cfg0.win 3).cut (grid0.coords t) ((dat0 V c).after 3 t) = _
  rw [after0_3]
  unfold out0_3
  rw [View.canon_unit_zero zero2]
  simp only [View.ld_unit_zero (S := S4096x74) zero2, View.ld_unit_zero (S := S74x128) zero2, View.ld_unit_zero (S := S4096x1) zero2]
  funext j
  obtain ⟨r, q, rfl⟩ : ∃ (r : Fin 4096) (q : Fin 128), j = ix2 r q := ⟨j 0, j 1, eq_ix2 j⟩
  show k0_pay1 (F := Ideal) (iblk0 V c 0 t) (iblk0 V c 1 t) (iblk0 V c 2 t) (ix2 r q)
    = Cert.Spec.embed (V c main_arg0) (V c main_arg3) (V c main_v10) (((cfg0.win 3).blk t).view.emb (ix2 r q))
  refine (Bodies.embed_body_at _ _ _ r q).trans ?_
  rw [emb_out, Cert.Spec.embed_at]
  have hx : ∀ k : Fin 74, iblk0 V c 0 t (ix2 r k) = V c main_arg0 (ix2 (row t r) k) := fun k => by
    show V c main_arg0 (((cfg0.win 0).blk t).view.emb (ix2 r k)) = _; rw [emb_x]
  have hw : ∀ k : Fin 74, iblk0 V c 1 t (ix2 k q) = V c main_arg3 (ix2 k q) := fun k => by
    show V c main_arg3 (((cfg0.win 1).blk t).view.emb (ix2 k q)) = _; rw [emb_w]
  have hn : iblk0 V c 2 t (ix2 r (0 : Fin 1)) = V c main_v10 (ix2 (row t r) (0 : Fin 1)) := by
    show V c main_v10 (((cfg0.win 2).blk t).view.emb (ix2 r (0 : Fin 1))) = _; rw [emb_ns]
  rw [hn]
  exact congrArg (· * _) (Finset.sum_congr rfl fun k _ => by rw [hx k, hw k])

/-- An index of the output is in point t's block iff each coordinate is in the block's range on its axis. -/
theorem mem_blk (t : Fin cfg0.N) (i : S131072x128.Idx) :
    i ∈ ((cfg0.win 3).blk t).view.set ↔ ∀ a : Fin 2, win0_3.index t a * S4096x128.size a ≤ (i a).val ∧ (i a).val < win0_3.index t a * S4096x128.size a + S4096x128.size a := by
  show i ∈ ((View.whole main_v15).slice (win0_3.rect t)).set ↔ _
  rw [View.set_slice_whole, Rect.mem_set_unit]
  exact Iff.rfl

/-- Every row of the output is in the block of the point its row index divided by 4096 names. -/
theorem cover (i : S131072x128.Idx) :
    ∃ t : Fin cfg0.N, (cfg0.win 3).flush t = true ∧ i ∈ ((cfg0.win 3).blk t).view.set := by
  have hi0 : (i 0).val < 131072 := (i 0).isLt
  have hi1 : (i 1).val < 128 := (i 1).isLt
  have hN : grid0.N = 32 := N_0
  let t : Fin cfg0.N := ⟨(i 0).val / 4096, by show (i 0).val / 4096 < grid0.N; omega⟩
  obtain ⟨-, -, -, -, -, -, e6, e7⟩ := index_facts t
  have ht : t.val = (i 0).val / 4096 := rfl
  refine ⟨t, flush0_3 t, ?_⟩
  rw [mem_blk]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- THE OUTPUT ARRAY after region 0: the embedding of the three arrays as the region found them. -/
theorem final (c : Dev nD) :
    (dat0 V c).arrAt 3 cfg0.N = Cert.Spec.embed (V c main_arg0) (V c main_arg3) (V c main_v10) :=
  (dat0 V c).arrAt_eq_of_cover 3 _ (fun t _ => flushed_eq V c t) cover

end Cert.KernelIdeal.Region0

end
-- ==== Proof.Region1.lean ====
/-
  Region 1, a layer whose hidden state feeds the next message pass, as one array. The grid has 32 points; point t fetches rows 4096·t … 4096·t + 4095 of the
  aggregated messages and of the degree-norm columns, the whole weight matrix and bias, and writes back the same rows of
  the output. What it writes back is those rows of `table agg nd ns W b`: entry (r, q) of the block is
  max (Σ_k (agg(4096·t + r, k) · nd(4096·t + r)) · W(k, q) + b(q)) 0, times ns(4096·t + r). The 32 blocks tile the [131072, 128] output.
-/
import proofs.«125973_j56427280335071_2_alg».proof.Proof.FrameKernelIdealP
import proofs.«125973_j56427280335071_2_alg».proof.Proof.Bodies
import proofs.«125973_j56427280335071_2_alg».proof.Proof.SpecAt
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps over the grid: the row windows sit at block row t, column block 0; the weights and the bias at
    block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row r of point t's block is row 4096·t + r of the array. -/
def row (t : Fin cfg1.N) (r : Fin 4096) : Fin 131072 :=
  ⟨t.val * 4096 + r.val, by have h : t.val < grid1.N := t.isLt
                            have hN : grid1.N = 32 := N_1
                            have := r.isLt; omega⟩

theorem emb_agg (t : Fin cfg1.N) (r : Fin 4096) (k : Fin 128) :
    ((cfg1.win 0).blk t).view.emb (ix2 r k) = ix2 (row t r) k := by
  have e := index_facts t
  funext a; apply Fin.ext
  match a with
  | ⟨0, _⟩ => show win1_0.index t (0 : Fin 2) * 4096 + 1 * r.val = t.val * 4096 + r.val; omega
  | ⟨1, _⟩ => show win1_0.index t (1 : Fin 2) * 128 + 1 * k.val = k.val; omega

theorem emb_nd (t : Fin cfg1.N) (r : Fin 4096) :
    ((cfg1.win 1).blk t).view.emb (ix2 r (0 : Fin 1)) = ix2 (row t r) (0 : Fin 1) := by
  have e := index_facts t
  funext a; apply Fin.ext
  match a with
  | ⟨0, _⟩ => show win1_1.index t (0 : Fin 2) * 4096 + 1 * r.val = t.val * 4096 + r.val; omega
  | ⟨1, _⟩ => show win1_1.index t (1 : Fin 2) * 1 + 1 * 0 = 0; omega

theorem emb_ns (t : Fin cfg1.N) (r : Fin 4096) :
    ((cfg1.win 2).blk t).view.emb (ix2 r (0 : Fin 1)) = ix2 (row t r) (0 : Fin 1) := by
  have e := index_facts t
  funext a; apply Fin.ext
  match a with
  | ⟨0, _⟩ => show win1_2.index t (0 : Fin 2) * 4096 + 1 * r.val = t.val * 4096 + r.val; omega
  | ⟨1, _⟩ => show win1_2.index t (1 : Fin 2) * 1 + 1 * 0 = 0; omega

theorem emb_w (t : Fin cfg1.N) (k : Fin 128) (q : Fin 128) :
    ((cfg1.win 3).blk t).view.emb (ix2 k q) = ix2 k q := by
  have e := index_facts t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem emb_b (t : Fin cfg1.N) (q : Fin 128) :
    ((cfg1.win 4).blk t).view.emb (ix1 q) = ix1 q := by
  have e := index_facts t
  funext a; apply Fin.ext
  match a with
  | ⟨0, _⟩ => show win1_4.index t (0 : Fin 1) * 128 + 1 * q.val = q.val; omega

theorem emb_out (t : Fin cfg1.N) (r : Fin 4096) (q : Fin 128) :
    ((cfg1.win 5).blk t).view.emb (ix2 r q) = ix2 (row t r) q := by
  have e := index_facts t
  funext a; apply Fin.ext
  match a with
  | ⟨0, _⟩ => show win1_5.index t (0 : Fin 2) * 4096 + 1 * r.val = t.val * 4096 + r.val; omega
  | ⟨1, _⟩ => show win1_5.index t (1 : Fin 2) * 128 + 1 * q.val = q.val; omega

/-- What point t writes back is block t of the layer's output over the arrays as the region found them. -/
theorem flushed_eq (c : Dev nD) (t : Fin cfg1.N) :
    (dat1 V c).flushed 5 t
      = ((cfg1.win 5).blk t).view.read (Elt Ideal) (Cert.Spec.table (V c main_v26) (V c main_v14) (V c main_v10) (V c main_arg4) (V c main_arg5)) := by
  show (cfg1.win 5).cut (grid1.coords t) ((dat1 V c).after 5 t) = _
  rw [after1_5]
  unfold out1_5
  rw [View.canon_unit_zero zero2]
  simp only [View.ld_unit_zero (S := S4096x128) zero2, View.ld_unit_zero (S := S4096x1) zero2, View.ld_unit_zero (S := S128x128) zero2, View.ld_unit_zero (S := S128) zero1]
  funext j
  obtain ⟨r, q, rfl⟩ : ∃ (r : Fin 4096) (q : Fin 128), j = ix2 r q := ⟨j 0, j 1, eq_ix2 j⟩
  show k1_pay1 (F := Ideal) (iblk1 V c 0 t) (iblk1 V c 1 t) (iblk1 V c 3 t) (iblk1 V c 4 t) (iblk1 V c 2 t) (ix2 r q)
    = Cert.Spec.table (V c main_v26) (V c main_v14) (V c main_v10) (V c main_arg4) (V c main_arg5) (((cfg1.win 5).blk t).view.emb (ix2 r q))
  refine (Bodies.table_body_at _ _ _ _ _ r q).trans ?_
  rw [emb_out, Cert.Spec.table_at]
  have hx : ∀ k : Fin 128, iblk1 V c 0 t (ix2 r k) = V c main_v26 (ix2 (row t r) k) := fun k => by
    show V c main_v26 (((cfg1.win 0).blk t).view.emb (ix2 r k)) = _; rw [emb_agg]
  have hnd : iblk1 V c 1 t (ix2 r (0 : Fin 1)) = V c main_v14 (ix2 (row t r) (0 : Fin 1)) := by
    show V c main_v14 (((cfg1.win 1).blk t).view.emb (ix2 r (0 : Fin 1))) = _; rw [emb_nd]
  have hns : iblk1 V c 2 t (ix2 r (0 : Fin 1)) = V c main_v10 (ix2 (row t r) (0 : Fin 1)) := by
    show V c main_v10 (((cfg1.win 2).blk t).view.emb (ix2 r (0 : Fin 1))) = _; rw [emb_ns]
  have hw : ∀ k : Fin 128, iblk1 V c 3 t (ix2 k q) = V c main_arg4 (ix2 k q) := fun k => by
    show V c main_arg4 (((cfg1.win 3).blk t).view.emb (ix2 k q)) = _; rw [emb_w]
  have hb : iblk1 V c 4 t (ix1 q) = V c main_arg5 (ix1 q) := by
    show V c main_arg5 (((cfg1.win 4).blk t).view.emb (ix1 q)) = _; rw [emb_b]
  rw [hb, hns]
  exact congrArg (fun s => max (s + _) _ * _) (Finset.sum_congr rfl fun k _ => by rw [hx k, hnd, hw k])

/-- An index of the output is in point t's block iff each coordinate is in the block's range on its axis. -/
theorem mem_blk (t : Fin cfg1.N) (i : S131072x128.Idx) :
    i ∈ ((cfg1.win 5).blk t).view.set ↔ ∀ a : Fin 2, win1_5.index t a * S4096x128.size a ≤ (i a).val ∧ (i a).val < win1_5.index t a * S4096x128.size a + S4096x128.size a := by
  show i ∈ ((View.whole main_v27).slice (win1_5.rect t)).set ↔ _
  rw [View.set_slice_whole, Rect.mem_set_unit]
  exact Iff.rfl

/-- Every row of the output is in the block of the point its row index divided by 4096 names. -/
theorem cover (i : S131072x128.Idx) :
    ∃ t : Fin cfg1.N, (cfg1.win 5).flush t = true ∧ i ∈ ((cfg1.win 5).blk t).view.set := by
  have hi0 : (i 0).val < 131072 := (i 0).isLt
  have hi1 : (i 1).val < 128 := (i 1).isLt
  have hN : grid1.N = 32 := N_1
  let t : Fin cfg1.N := ⟨(i 0).val / 4096, by show (i 0).val / 4096 < grid1.N; omega⟩
  have e := index_facts t
  have ht : t.val = (i 0).val / 4096 := rfl
  refine ⟨t, flush1_5 t, ?_⟩
  rw [mem_blk]
  intro a
  match a with
  | ⟨0, _⟩ => show win1_5.index t (0 : Fin 2) * 4096 ≤ (i 0).val ∧ (i 0).val < win1_5.index t (0 : Fin 2) * 4096 + 4096; omega
  | ⟨1, _⟩ => show win1_5.index t (1 : Fin 2) * 128 ≤ (i 1).val ∧ (i 1).val < win1_5.index t (1 : Fin 2) * 128 + 128; omega

/-- THE OUTPUT ARRAY after region 1. -/
theorem final (c : Dev nD) :
    (dat1 V c).arrAt 5 cfg1.N = Cert.Spec.table (V c main_v26) (V c main_v14) (V c main_v10) (V c main_arg4) (V c main_arg5) :=
  (dat1 V c).arrAt_eq_of_cover 5 _ (fun t _ => flushed_eq V c t) cover

end Cert.KernelIdeal.Region1

end
-- ==== Proof.Region2.lean ====
/-
  Region 2, a layer whose hidden state feeds the next message pass, as one array. The grid has 32 points; point t fetches rows 4096·t … 4096·t + 4095 of the
  aggregated messages and of the degree-norm columns, the whole weight matrix and bias, and writes back the same rows of
  the output. What it writes back is those rows of `table agg nd ns W b`: entry (r, q) of the block is
  max (Σ_k (agg(4096·t + r, k) · nd(4096·t + r)) · W(k, q) + b(q)) 0, times ns(4096·t + r). The 32 blocks tile the [131072, 128] output.
-/
import proofs.«125973_j56427280335071_2_alg».proof.Proof.FrameKernelIdealP
import proofs.«125973_j56427280335071_2_alg».proof.Proof.Bodies
import proofs.«125973_j56427280335071_2_alg».proof.Proof.SpecAt
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps over the grid: the row windows sit at block row t, column block 0; the weights and the bias at
    block 0. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 1) = 0
    ∧ win2_5.index t (0 : Fin 2) = t.val ∧ win2_5.index t (1 : Fin 2) = 0 :=
  (by decide +kernel : ∀ t : Fin grid2.N, _)

/-- Row r of point t's block is row 4096·t + r of the array. -/
def row (t : Fin cfg2.N) (r : Fin 4096) : Fin 131072 :=
  ⟨t.val * 4096 + r.val, by have h : t.val < grid2.N := t.isLt
                            have hN : grid2.N = 32 := N_2
                            have := r.isLt; omega⟩

theorem emb_agg (t : Fin cfg2.N) (r : Fin 4096) (k : Fin 128) :
    ((cfg2.win 0).blk t).view.emb (ix2 r k) = ix2 (row t r) k := by
  have e := index_facts t
  funext a; apply Fin.ext
  match a with
  | ⟨0, _⟩ => show win2_0.index t (0 : Fin 2) * 4096 + 1 * r.val = t.val * 4096 + r.val; omega
  | ⟨1, _⟩ => show win2_0.index t (1 : Fin 2) * 128 + 1 * k.val = k.val; omega

theorem emb_nd (t : Fin cfg2.N) (r : Fin 4096) :
    ((cfg2.win 1).blk t).view.emb (ix2 r (0 : Fin 1)) = ix2 (row t r) (0 : Fin 1) := by
  have e := index_facts t
  funext a; apply Fin.ext
  match a with
  | ⟨0, _⟩ => show win2_1.index t (0 : Fin 2) * 4096 + 1 * r.val = t.val * 4096 + r.val; omega
  | ⟨1, _⟩ => show win2_1.index t (1 : Fin 2) * 1 + 1 * 0 = 0; omega

theorem emb_ns (t : Fin cfg2.N) (r : Fin 4096) :
    ((cfg2.win 2).blk t).view.emb (ix2 r (0 : Fin 1)) = ix2 (row t r) (0 : Fin 1) := by
  have e := index_facts t
  funext a; apply Fin.ext
  match a with
  | ⟨0, _⟩ => show win2_2.index t (0 : Fin 2) * 4096 + 1 * r.val = t.val * 4096 + r.val; omega
  | ⟨1, _⟩ => show win2_2.index t (1 : Fin 2) * 1 + 1 * 0 = 0; omega

theorem emb_w (t : Fin cfg2.N) (k : Fin 128) (q : Fin 128) :
    ((cfg2.win 3).blk t).view.emb (ix2 k q) = ix2 k q := by
  have e := index_facts t
  funext a; apply Fin.ext
  match a with
  | ⟨0, _⟩ => show win2_3.index t (0 : Fin 2) * 128 + 1 * k.val = k.val; omega
  | ⟨1, _⟩ => show win2_3.index t (1 : Fin 2) * 128 + 1 * q.val = q.val; omega

theorem emb_b (t : Fin cfg2.N) (q : Fin 128) :
    ((cfg2.win 4).blk t).view.emb (ix1 q) = ix1 q := by
  have e := index_facts t
  funext a; apply Fin.ext
  match a with
  | ⟨0, _⟩ => show win2_4.index t (0 : Fin 1) * 128 + 1 * q.val = q.val; omega

theorem emb_out (t : Fin cfg2.N) (r : Fin 4096) (q : Fin 128) :
    ((cfg2.win 5).blk t).view.emb (ix2 r q) = ix2 (row t r) q := by
  have e := index_facts t
  funext a; apply Fin.ext
  match a with
  | ⟨0, _⟩ => show win2_5.index t (0 : Fin 2) * 4096 + 1 * r.val = t.val * 4096 + r.val; omega
  | ⟨1, _⟩ => show win2_5.index t (1 : Fin 2) * 128 + 1 * q.val = q.val; omega

/-- What point t writes back is block t of the layer's output over the arrays as the region found them. -/
theorem flushed_eq (c : Dev nD) (t : Fin cfg2.N) :
    (dat2 V c).flushed 5 t
      = ((cfg2.win 5).blk t).view.read (Elt Ideal) (Cert.Spec.table (V c main_v38) (V c main_v14) (V c main_v10) (V c main_arg6) (V c main_arg7)) := by
  show (cfg2.win 5).cut (grid2.coords t) ((dat2 V c).after 5 t) = _
  rw [after2_5]
  unfold out2_5
  rw [View.canon_unit_zero zero2]
  simp only [View.ld_unit_zero (S := S4096x128) zero2, View.ld_unit_zero (S := S4096x1) zero2, View.ld_unit_zero (S := S128x128) zero2, View.ld_unit_zero (S := S128) zero1]
  funext j
  obtain ⟨r, q, rfl⟩ : ∃ (r : Fin 4096) (q : Fin 128), j = ix2 r q := ⟨j 0, j 1, eq_ix2 j⟩
  show k2_pay1 (F := Ideal) (iblk2 V c 0 t) (iblk2 V c 1 t) (iblk2 V c 3 t) (iblk2 V c 4 t) (iblk2 V c 2 t) (ix2 r q)
    = Cert.Spec.table (V c main_v38) (V c main_v14) (V c main_v10) (V c main_arg6) (V c main_arg7) (((cfg2.win 5).blk t).view.emb (ix2 r q))
  refine (Bodies.table_body_at' _ _ _ _ _ r q).trans ?_
  rw [emb_out, Cert.Spec.table_at]
  have hx : ∀ k : Fin 128, iblk2 V c 0 t (ix2 r k) = V c main_v38 (ix2 (row t r) k) := fun k => by
    show V c main_v38 (((cfg2.win 0).blk t).view.emb (ix2 r k)) = _; rw [emb_agg]
  have hnd : iblk2 V c 1 t (ix2 r (0 : Fin 1)) = V c main_v14 (ix2 (row t r) (0 : Fin 1)) := by
    show V c main_v14 (((cfg2.win 1).blk t).view.emb (ix2 r (0 : Fin 1))) = _; rw [emb_nd]
  have hns : iblk2 V c 2 t (ix2 r (0 : Fin 1)) = V c main_v10 (ix2 (row t r) (0 : Fin 1)) := by
    show V c main_v10 (((cfg2.win 2).blk t).view.emb (ix2 r (0 : Fin 1))) = _; rw [emb_ns]
  have hw : ∀ k : Fin 128, iblk2 V c 3 t (ix2 k q) = V c main_arg6 (ix2 k q) := fun k => by
    show V c main_arg6 (((cfg2.win 3).blk t).view.emb (ix2 k q)) = _; rw [emb_w]
  have hb : iblk2 V c 4 t (ix1 q) = V c main_arg7 (ix1 q) := by
    show V c main_arg7 (((cfg2.win 4).blk t).view.emb (ix1 q)) = _; rw [emb_b]
  rw [hb, hns]
  exact congrArg (fun s => max (s + _) _ * _) (Finset.sum_congr rfl fun k _ => by rw [hx k, hnd, hw k])

/-- An index of the output is in point t's block iff each coordinate is in the block's range on its axis. -/
theorem mem_blk (t : Fin cfg2.N) (i : S131072x128.Idx) :
    i ∈ ((cfg2.win 5).blk t).view.set ↔ ∀ a : Fin 2, win2_5.index t a * S4096x128.size a ≤ (i a).val ∧ (i a).val < win2_5.index t a * S4096x128.size a + S4096x128.size a := by
  show i ∈ ((View.whole main_v39).slice (win2_5.rect t)).set ↔ _
  rw [View.set_slice_whole, Rect.mem_set_unit]
  exact Iff.rfl

/-- Every row of the output is in the block of the point its row index divided by 4096 names. -/
theorem cover (i : S131072x128.Idx) :
    ∃ t : Fin cfg2.N, (cfg2.win 5).flush t = true ∧ i ∈ ((cfg2.win 5).blk t).view.set := by
  have hi0 : (i 0).val < 131072 := (i 0).isLt
  have hi1 : (i 1).val < 128 := (i 1).isLt
  have hN : grid2.N = 32 := N_2
  let t : Fin cfg2.N := ⟨(i 0).val / 4096, by show (i 0).val / 4096 < grid2.N; omega⟩
  have e := index_facts t
  have ht : t.val = (i 0).val / 4096 := rfl
  refine ⟨t, flush2_5 t, ?_⟩
  rw [mem_blk]
  intro a
  match a with
  | ⟨0, _⟩ => show win2_5.index t (0 : Fin 2) * 4096 ≤ (i 0).val ∧ (i 0).val < win2_5.index t (0 : Fin 2) * 4096 + 4096; omega
  | ⟨1, _⟩ => show win2_5.index t (1 : Fin 2) * 128 ≤ (i 1).val ∧ (i 1).val < win2_5.index t (1 : Fin 2) * 128 + 128; omega

/-- THE OUTPUT ARRAY after region 2. -/
theorem final (c : Dev nD) :
    (dat2 V c).arrAt 5 cfg2.N = Cert.Spec.table (V c main_v38) (V c main_v14) (V c main_v10) (V c main_arg6) (V c main_arg7) :=
  (dat2 V c).arrAt_eq_of_cover 5 _ (fun t _ => flushed_eq V c t) cover

end Cert.KernelIdeal.Region2

end
-- ==== Proof.Region3.lean ====
/-
  Region 3, the last layer, as one array. The grid has 32 points; point t fetches rows 4096·t … 4096·t + 4095 of the
  aggregated messages and of the degree-norm column, the whole weight matrix and bias, and writes back the same rows of
  the output. What it writes back is those rows of `hidden agg nd W b`: entry (r, q) of the block is
  max (Σ_k (agg(4096·t + r, k) · nd(4096·t + r)) · W(k, q) + b(q)) 0. The 32 blocks tile the [131072, 128] output.
-/
import proofs.«125973_j56427280335071_2_alg».proof.Proof.FrameKernelIdealP
import proofs.«125973_j56427280335071_2_alg».proof.Proof.Bodies
import proofs.«125973_j56427280335071_2_alg».proof.Proof.SpecAt
import Idealize.ShloMosaic.Lib.Pipeline.Value

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen Cert.KernelIdeal.GenP
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a; rfl

/-- The printed index maps over the grid: the row windows sit at block row t, column block 0; the weights and the bias at
    block 0. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- Row r of point t's block is row 4096·t + r of the array. -/
def row (t : Fin cfg3.N) (r : Fin 4096) : Fin 131072 :=
  ⟨t.val * 4096 + r.val, by have h : t.val < grid3.N := t.isLt
                            have hN : grid3.N = 32 := N_3
                            have := r.isLt; omega⟩

theorem emb_agg (t : Fin cfg3.N) (r : Fin 4096) (k : Fin 128) :
    ((cfg3.win 0).blk t).view.emb (ix2 r k) = ix2 (row t r) k := by
  have e := index_facts t
  funext a; apply Fin.ext
  match a with
  | ⟨0, _⟩ => show win3_0.index t (0 : Fin 2) * 4096 + 1 * r.val = t.val * 4096 + r.val; omega
  | ⟨1, _⟩ => show win3_0.index t (1 : Fin 2) * 128 + 1 * k.val = k.val; omega

theorem emb_nd (t : Fin cfg3.N) (r : Fin 4096) :
    ((cfg3.win 1).blk t).view.emb (ix2 r (0 : Fin 1)) = ix2 (row t r) (0 : Fin 1) := by
  have e := index_facts t
  funext a; apply Fin.ext
  match a with
  | ⟨0, _⟩ => show win3_1.index t (0 : Fin 2) * 4096 + 1 * r.val = t.val * 4096 + r.val; omega
  | ⟨1, _⟩ => show win3_1.index t (1 : Fin 2) * 1 + 1 * 0 = 0; omega

theorem emb_w (t : Fin cfg3.N) (k : Fin 128) (q : Fin 128) :
    ((cfg3.win 2).blk t).view.emb (ix2 k q) = ix2 k q := by
  have e := index_facts t
  funext a; apply Fin.ext
  match a with
  | ⟨0, _⟩ => show win3_2.index t (0 : Fin 2) * 128 + 1 * k.val = k.val; omega
  | ⟨1, _⟩ => show win3_2.index t (1 : Fin 2) * 128 + 1 * q.val = q.val; omega

theorem emb_b (t : Fin cfg3.N) (q : Fin 128) :
    ((cfg3.win 3).blk t).view.emb (ix1 q) = ix1 q := by
  have e := index_facts t
  funext a; apply Fin.ext
  match a with
  | ⟨0, _⟩ => show win3_3.index t (0 : Fin 1) * 128 + 1 * q.val = q.val; omega

theorem emb_out (t : Fin cfg3.N) (r : Fin 4096) (q : Fin 128) :
    ((cfg3.win 4).blk t).view.emb (ix2 r q) = ix2 (row t r) q := by
  have e := index_facts t
  funext a; apply Fin.ext
  match a with
  | ⟨0, _⟩ => show win3_4.index t (0 : Fin 2) * 4096 + 1 * r.val = t.val * 4096 + r.val; omega
  | ⟨1, _⟩ => show win3_4.index t (1 : Fin 2) * 128 + 1 * q.val = q.val; omega

/-- What point t writes back is block t of the layer's output over the arrays as the region found them. -/
theorem flushed_eq (c : Dev nD) (t : Fin cfg3.N) :
    (dat3 V c).flushed 4 t
      = ((cfg3.win 4).blk t).view.read (Elt Ideal) (Cert.Spec.hidden (V c main_v50) (V c main_v14) (V c main_arg8) (V c main_arg9)) := by
  show (cfg3.win 4).cut (grid3.coords t) ((dat3 V c).after 4 t) = _
  rw [after3_4]
  unfold out3_4
  rw [View.canon_unit_zero zero2]
  simp only [View.ld_unit_zero (S := S4096x128) zero2, View.ld_unit_zero (S := S4096x1) zero2, View.ld_unit_zero (S := S128x128) zero2, View.ld_unit_zero (S := S128) zero1]
  funext j
  obtain ⟨r, q, rfl⟩ : ∃ (r : Fin 4096) (q : Fin 128), j = ix2 r q := ⟨j 0, j 1, eq_ix2 j⟩
  show k3_pay1 (F := Ideal) (iblk3 V c 0 t) (iblk3 V c 1 t) (iblk3 V c 2 t) (iblk3 V c 3 t) (ix2 r q)
    = Cert.Spec.hidden (V c main_v50) (V c main_v14) (V c main_arg8) (V c main_arg9) (((cfg3.win 4).blk t).view.emb (ix2 r q))
  refine (Bodies.hidden_body_at _ _ _ _ r q).trans ?_
  rw [emb_out, Cert.Spec.hidden_at]
  have hx : ∀ k : Fin 128, iblk3 V c 0 t (ix2 r k) = V c main_v50 (ix2 (row t r) k) := fun k => by
    show V c main_v50 (((cfg3.win 0).blk t).view.emb (ix2 r k)) = _; rw [emb_agg]
  have hnd : iblk3 V c 1 t (ix2 r (0 : Fin 1)) = V c main_v14 (ix2 (row t r) (0 : Fin 1)) := by
    show V c main_v14 (((cfg3.win 1).blk t).view.emb (ix2 r (0 : Fin 1))) = _; rw [emb_nd]
  have hw : ∀ k : Fin 128, iblk3 V c 2 t (ix2 k q) = V c main_arg8 (ix2 k q) := fun k => by
    show V c main_arg8 (((cfg3.win 2).blk t).view.emb (ix2 k q)) = _; rw [emb_w]
  have hb : iblk3 V c 3 t (ix1 q) = V c main_arg9 (ix1 q) := by
    show V c main_arg9 (((cfg3.win 3).blk t).view.emb (ix1 q)) = _; rw [emb_b]
  rw [hb]
  exact congrArg (fun s => max (s + _) _) (Finset.sum_congr rfl fun k _ => by rw [hx k, hnd, hw k])

/-- An index of the output is in point t's block iff each coordinate is in the block's range on its axis. -/
theorem mem_blk (t : Fin cfg3.N) (i : S131072x128.Idx) :
    i ∈ ((cfg3.win 4).blk t).view.set ↔ ∀ a : Fin 2, win3_4.index t a * S4096x128.size a ≤ (i a).val ∧ (i a).val < win3_4.index t a * S4096x128.size a + S4096x128.size a := by
  show i ∈ ((View.whole main_v51).slice (win3_4.rect t)).set ↔ _
  rw [View.set_slice_whole, Rect.mem_set_unit]
  exact Iff.rfl

/-- Every row of the output is in the block of the point its row index divided by 4096 names. -/
theorem cover (i : S131072x128.Idx) :
    ∃ t : Fin cfg3.N, (cfg3.win 4).flush t = true ∧ i ∈ ((cfg3.win 4).blk t).view.set := by
  have hi0 : (i 0).val < 131072 := (i 0).isLt
  have hi1 : (i 1).val < 128 := (i 1).isLt
  have hN : grid3.N = 32 := N_3
  let t : Fin cfg3.N := ⟨(i 0).val / 4096, by show (i 0).val / 4096 < grid3.N; omega⟩
  have e := index_facts t
  have ht : t.val = (i 0).val / 4096 := rfl
  refine ⟨t, flush3_4 t, ?_⟩
  rw [mem_blk]
  intro a
  match a with
  | ⟨0, _⟩ => show win3_4.index t (0 : Fin 2) * 4096 ≤ (i 0).val ∧ (i 0).val < win3_4.index t (0 : Fin 2) * 4096 + 4096; omega
  | ⟨1, _⟩ => show win3_4.index t (1 : Fin 2) * 128 ≤ (i 1).val ∧ (i 1).val < win3_4.index t (1 : Fin 2) * 128 + 128; omega

/-- THE OUTPUT ARRAY after region 3. -/
theorem final (c : Dev nD) :
    (dat3 V c).arrAt 4 cfg3.N = Cert.Spec.hidden (V c main_v50) (V c main_v14) (V c main_arg8) (V c main_arg9) :=
  (dat3 V c).arrAt_eq_of_cover 4 _ (fun t _ => flushed_eq V c t) cover

end Cert.KernelIdeal.Region3

end
-- ==== Proof.KernelValue.lean ====
/-
  The kernel program's result is the network function of its argument arrays.
  Each region leaves its dense stage of the arrays it found (Region0 … Region3); what it found is the launch
  arguments, the two degree-norm columns and one message pass over the previous region's output (KernelRun). Two small
  facts join the kernel's host computations to the network's:
    * the degree norm: the kernel clamps the count as max(count, 1) and re-lays the vector [131072] as a column by a
      reshape, the network writes max(1, count) and a broadcast along a new unit axis — `max` is symmetric and both
      columns read the vector's entry p at row p;
    * the message pass: the kernel gathers rows of a table it keeps in a narrower float format and widens them before
      the scatter-add; with exact arithmetic a change of format is the identity.
-/
import proofs.«125973_j56427280335071_2_alg».proof.Proof.KernelRun
import proofs.«125973_j56427280335071_2_alg».proof.Proof.Region0
import proofs.«125973_j56427280335071_2_alg».proof.Proof.Region1
import proofs.«125973_j56427280335071_2_alg».proof.Proof.Region2
import proofs.«125973_j56427280335071_2_alg».proof.Proof.Region3

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.KernelIdeal.GenP Cert.KernelIdeal.Run

/-- rsqrt of a clamp does not see the order of the clamp's operands. -/
theorem rsqrt_max_comm (a b : FVec Ideal S131072 .f32) (i : S131072.Idx) :
    Host.rsqrt (F := Ideal) (maximumf a b) i = Host.rsqrt (F := Ideal) (maximumf b a) i := by
  show FloatOps.hostUnary (F := Ideal) .rsqrt (max (a i) (b i)) = FloatOps.hostUnary (F := Ideal) .rsqrt (max (b i) (a i))
  rw [max_comm]

/-- The kernel's degree norm of an index array is the network's. -/
theorem degNorm_eq (idx : IVec S1048576 32) : degNorm (F := Ideal) idx = Cert.Spec.nrm idx := by
  funext i
  obtain ⟨p, u, rfl⟩ : ∃ (p : Fin 131072) (u : Fin 1), i = ix2 p u := ⟨i 0, i 1, eq_ix2 i⟩
  unfold degNorm Cert.Spec.nrm
  rw [shapeCast_a_a1_apply]
  rw [broadcastInDim_apply _ Cert.ReferenceIdeal.Facts₀.bcast_S131072_S131072x1_0 _ (ix2 p u) (ix1 p) (fun a => match a with
    | ⟨0, _⟩ => by show p.val = if (131072 : Nat) = 1 then 0 else p.val; rw [if_neg (by decide)])]
  exact rsqrt_max_comm _ _ (ix1 p)

/-- The kernel's message pass over a table is the network's. -/
theorem msg_eq (src dst : IVec S1048576 32) (t : FVec Ideal S131072x128 .bf16) :
    msg (F := Ideal) src dst t = Cert.Spec.msg src dst t := rfl

/-- THE RESULT BUFFER at the end of the kernel program: the network function of the ten argument arrays. -/
theorem result_eq (m : (ℓ : Loc nD τ sig) → Buf (Elt Ideal) ℓ) (ρ : Dev nD → PrngReg) (c : Dev nD) :
    W9 m ρ c (Proc.devRef .tc main_v52)
      = Cert.Spec.gcn (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  -- the two degree-norm columns, wherever a region finds them
  have ns1 := (V1_v10 m ρ c).trans (degNorm_eq _)
  have ns3 := (V3_v10 m ρ c).trans (degNorm_eq _)
  have ns5 := (V5_v10 m ρ c).trans (degNorm_eq _)
  have nd3 := (V3_v14 m ρ c).trans (degNorm_eq _)
  have nd5 := (V5_v14 m ρ c).trans (degNorm_eq _)
  have nd7 := (V7_v14 m ρ c).trans (degNorm_eq _)
  -- the embedding, then three times: a message pass over the previous table, and the layer over it
  have t0 := (Region0.final (V1 m ρ) c).trans
    (congr (congr (congrArg Cert.Spec.embed (V1_arg0 m ρ c)) (V1_arg3 m ρ c)) ns1)
  have g1 := (V3_v26 m ρ c).trans ((congrArg (fun t => msgK m t c) t0).trans (msg_eq _ _ _))
  have t1 := (Region1.final (V3 m ρ) c).trans
    (congr (congr (congr (congr (congrArg Cert.Spec.table g1) nd3) ns3) (V3_arg4 m ρ c)) (V3_arg5 m ρ c))
  have g2 := (V5_v38 m ρ c).trans ((congrArg (fun t => msgK m t c) t1).trans (msg_eq _ _ _))
  have t2 := (Region2.final (V5 m ρ) c).trans
    (congr (congr (congr (congr (congrArg Cert.Spec.table g2) nd5) ns5) (V5_arg6 m ρ c)) (V5_arg7 m ρ c))
  have g3 := (V7_v50 m ρ c).trans ((congrArg (fun t => msgK m t c) t2).trans (msg_eq _ _ _))
  have t3 := (Region3.final (V7 m ρ) c).trans
    (congr (congr (congr (congrArg Cert.Spec.hidden g3) nd7) (V7_arg8 m ρ c)) (V7_arg9 m ρ c))
  exact (W9_result m ρ c).trans
    (congrArg (fun X => shapeCast S256x512x128 X shapeCasts_S131072x128_S256x512x128) t3)

end Cert.KernelIdeal.Value

end
-- ==== Proof.lean ====
/-
  A three-layer graph convolution over a batched graph (131072 nodes, 1048576 edges, 128 features): a Pallas program of
  four dense regions around the host's gathers and scatter-adds, against the plain jnp program.

  Both compute, with exact arithmetic, ONE function of the ten arguments (Proof/Spec.lean, `Cert.Spec.gcn`):
      ns = rsqrt (max 1 outdeg),  nd = rsqrt (max 1 indeg)                     (degree norms, columns [131072, 1])
      t₀ = (x · W_init) ⊙ ns
      for each layer (W, b):   agg = Σ_{edges e, dst e = node} t[src e],   h = max ((agg ⊙ nd) · W + b) 0,   t = h ⊙ ns
      result = the last h, re-laid as [256, 512, 128].
  The two programs perform the same operations in the same order; they differ in where the dense stages run. The
  reference runs them on whole arrays on the host. The kernel runs them block by block (32 blocks of 4096 rows),
  keeps the table t in a narrower float format between regions, fuses the scaling by ns into the region that produces h,
  and writes the clamp as max(outdeg, 1). None of this is visible with exact arithmetic: a change of format is the
  identity, a `tpu.matmul` into zeros and `dot_general` are the same sum Σ_k l(p, k) · r(k, q), the blocks tile the
  arrays, and `max` is symmetric. No algebraic law that could fail at an infinity is used, so the precondition (finite
  inputs) is not opened.

  The modules: Spec (the function) · RefValue (the reference's run is that function's text) · Products (a matrix
  product at an entry) · Bodies (what each kernel body stores at an entry) · SpecAt (the dense stages at an entry) ·
  Region0 … Region3 (each region's output array is its dense stage of the arrays it found) · KernelRun (the kernel
  program's run with its result named, and what each region finds) · KernelValue (the kernel's result is the function).
  The gathers and scatter-adds are never opened: they are the same host operations, on equal operands, on both sides.
-/
import proofs.«125973_j56427280335071_2_alg».proof.Defs
import proofs.«125973_j56427280335071_2_alg».proof.Proof.Gen.Kernel
import proofs.«125973_j56427280335071_2_alg».proof.Proof.Gen.Kernel.Skeleton
import proofs.«125973_j56427280335071_2_alg».proof.Proof.LaunchKernelP
import proofs.«125973_j56427280335071_2_alg».proof.Proof.Gen.Kernel.Points
import proofs.«125973_j56427280335071_2_alg».proof.Proof.FrameKernelP
import proofs.«125973_j56427280335071_2_alg».proof.Proof.Gen.KernelIdeal
import proofs.«125973_j56427280335071_2_alg».proof.Proof.Gen.KernelIdeal.Skeleton
import proofs.«125973_j56427280335071_2_alg».proof.Proof.LaunchKernelIdealP
import proofs.«125973_j56427280335071_2_alg».proof.Proof.Gen.KernelIdeal.Points
import proofs.«125973_j56427280335071_2_alg».proof.Proof.FrameKernelIdealP
import proofs.«125973_j56427280335071_2_alg».proof.Proof.Gen.ReferenceIdeal
import proofs.«125973_j56427280335071_2_alg».proof.Proof.Gen.Pre_finite_inputs
import proofs.«125973_j56427280335071_2_alg».proof.Proof.Gen.ReferenceIdeal.Run
import proofs.«125973_j56427280335071_2_alg».proof.Proof.Gen.ReferenceIdeal.Read
import proofs.«125973_j56427280335071_2_alg».proof.Proof.RefValue
import proofs.«125973_j56427280335071_2_alg».proof.Proof.KernelValue
import Idealize.ShloMosaic.Adequacy
import Idealize.ShloMosaic.Init

noncomputable section

namespace Cert.Proof

open Idealize.ShloMosaic Idealize.SL.Sem

/-- The word-level kernel program runs and leaves its arguments alone. -/
theorem frame_k : Cert.frame_Kernel := fun m ρ _ => Cert.Kernel.GenP.frame m ρ

/-- So does the idealized kernel program. -/
theorem frame_ki : Cert.frame_KernelIdeal := fun m ρ _ => Cert.KernelIdeal.GenP.frame m ρ

/-- The reference is a host program: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the ten arguments both programs end with the network function of those arguments in
    their result buffers. -/
theorem algebraic : Cert.algebraic_KernelIdeal_ReferenceIdeal := by
  intro m ρ m' ρ' _ hagree
  refine ⟨fun c => Cert.Spec.gcn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Value.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.RefValue.result_eq, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
